-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S2 .f32) (main_v63 : IVec S_ 1) (main_v67 : IVec S_ 1) : IVec S_ 1 :=
  let main_v68 : IVec S_ 1 := andi main_v63 main_v67
  let main_v69 : FVec F S2 .f32 := Host.absf main_arg16
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg13 : FVec F S128x64 .f32) (main_arg14 : FVec F S64 .f32) (main_arg15 : FVec F S64x2 .f32) (main_arg16 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x2 .f32 := Host.absf main_arg15
  let main_cst_24 : FVec F S_ .f32 := constant S_ .f32 0x7F800000#32
  let main_v65 : FVec F S64x2 .f32 := broadcastInDim S64x2 ![] bcast_S_S64x2 main_cst_24
  let main_v66 : IVec S64x2 1 := cmpf .olt main_v64 main_v65
  let main_c_25 : IVec S_ 1 := constantI S_ 1 1#1
  let main_v67 : IVec S_ 1 := (fun x v => Host.reduce IntOp.andi x v reducesTo_S64x2_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S256x128 .f32) (main_arg12 : FVec F S128 .f32) (main_arg13 : FVec F S128x64 .f32) (main_arg14 : FVec F S64 .f32) (main_arg15 : FVec F S64x2 .f32) (main_arg16 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S256x128 .f32) (main_arg12 : FVec F S128 .f32) (main_arg13 : FVec F S128x64 .f32) (main_arg14 : FVec F S64 .f32) (main_arg15 : FVec F S64x2 .f32) (main_arg16 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S256x128 .f32) (main_arg12 : FVec F S128 .f32) (main_arg13 : FVec F S128x64 .f32) (main_arg14 : FVec F S64 .f32) (main_arg15 : FVec F S64x2 .f32) (main_arg16 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S10000x128 : Shape := ⟨2, ![10000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S800000x2 : Shape := ⟨2, ![800000, 2]⟩
abbrev S8000x128 : Shape := ⟨2, ![8000, 128]⟩
abbrev S8000x2 : Shape := ⟨2, ![8000, 2]⟩
abbrev S8000x64 : Shape := ⟨2, ![8000, 64]⟩
abbrev S1x64 : Shape := ⟨2, ![1, 64]⟩
abbrev S1x2 : Shape := ⟨2, ![1, 2]⟩

abbrev nBuf : Space → Nat
  | .hbm => 39
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x2, .f32⟩
  | .hbm, ⟨16, _⟩ => ⟨S2, .f32⟩
  | .hbm, ⟨17, _⟩ => ⟨S50000x128, .bf16⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .bf16⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .bf16⟩
  | .hbm, ⟨36, _⟩ => ⟨S128x128, .f32⟩
  | .hbm, ⟨37, _⟩ => ⟨S128x128, .f32⟩
  | .hbm, ⟨38, _⟩ => ⟨S800000x2, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S10000x128, .bf16⟩
  | .local _ .vmem, ⟨11, _⟩ => ⟨S10000x128, .bf16⟩
  | .local _ .vmem, ⟨12, _⟩ => ⟨S8000x128, .bf16⟩
  | .local _ .vmem, ⟨13, _⟩ => ⟨S8000x128, .bf16⟩
  | .local _ .vmem, ⟨14, _⟩ => ⟨S8000x128, .bf16⟩
  | .local _ .vmem, ⟨15, _⟩ => ⟨S8000x128, .bf16⟩
  | .local _ .vmem, ⟨16, _⟩ => ⟨S128x128, .f32⟩
  | .local _ .vmem, ⟨17, _⟩ => ⟨S128x128, .f32⟩
  | .local _ .vmem, ⟨18, _⟩ => ⟨S128, .f32⟩
  | .local _ .vmem, ⟨19, _⟩ => ⟨S128x64, .f32⟩
  | .local _ .vmem, ⟨20, _⟩ => ⟨S64, .f32⟩
  | .local _ .vmem, ⟨21, _⟩ => ⟨S64x2, .f32⟩
  | .local _ .vmem, ⟨22, _⟩ => ⟨S2, .f32⟩
  | .local _ .vmem, ⟨23, _⟩ => ⟨S8000x2, .f32⟩
  | .local _ .vmem, ⟨24, _⟩ => ⟨S8000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S8000x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  shapeCasts_S128x128_S128x128 : S128x128.ShapeCasts S128x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  dot_S8000x128_S128x64_S8000x64_1_0_0_1_n_n_wf : DotDims.WF S8000x128 S128x64 S8000x64 [1] [0] [0] [1] [] []
  dot_S8000x64_S64x2_S8000x2_1_0_0_1_n_n_wf : DotDims.WF S8000x64 S64x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x128.size a ≤ S50000x128.size a
  hwx0_9 : ∀ i : grid0.Coords, EltTy.bits .bf16 = 32 ∨ (Rect.block (s := S50000x128) S10000x128.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .bf16 = 32 ∨ (Rect.block (s := S800000x128) S8000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S800000x128.size a
  hwx1_1 : ∀ i : grid1.Coords, EltTy.bits .bf16 = 32 ∨ (Rect.block (s := S800000x128) S8000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x2.size a ≤ S64x2.size a
  hwx1_7 : ∀ i : grid1.Coords, EltTy.bits .f32 = 32 ∨ (Rect.block (s := S64x2) S64x2.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S2.size a ≤ S2.size a
  hwx1_8 : ∀ i : grid1.Coords, EltTy.bits .f32 = 32 ∨ (Rect.block (s := S2) S2.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8000x2.size a ≤ S800000x2.size a
  hwx1_9 : ∀ i : grid1.Coords, EltTy.bits .f32 = 32 ∨ (Rect.block (s := S800000x2) S8000x2.size (cc1_transform_9 i) (hinb1_9 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x2_S8000x2_1_0_0_1_n_n : DotDims S8000x64 S64x2 S8000x2 where
  lhsContracting := [1]
  rhsContracting := [0]
  lhsNonContracting := [0]
  rhsNonContracting := [1]
  lhsBatch := []
  rhsBatch := []
  wf := dot_S8000x64_S64x2_S8000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S10000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v7) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S64x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v17) S8000x2.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S800000x64 : Shape := ⟨2, ![800000, 64]⟩
abbrev S1x64 : Shape := ⟨2, ![1, 64]⟩
abbrev S800000x2 : Shape := ⟨2, ![800000, 2]⟩
abbrev S1x2 : Shape := ⟨2, ![1, 2]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x2, .f32⟩
  | .hbm, ⟨16, _⟩ => ⟨S2, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S_, .f32⟩
  | .hbm, ⟨22, _⟩ => ⟨S50000x128, .f32⟩
  | .hbm, ⟨23, _⟩ => ⟨S50000x128, .f32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S800000x256, .f32⟩
  | .hbm, ⟨70, _⟩ => ⟨S800000x128, .f32⟩
  | .hbm, ⟨71, _⟩ => ⟨S1x128, .f32⟩
  | .hbm, ⟨72, _⟩ => ⟨S800000x128, .f32⟩
  | .hbm, ⟨73, _⟩ => ⟨S800000x128, .f32⟩
  | .hbm, ⟨74, _⟩ => ⟨S_, .f32⟩
  | .hbm, ⟨75, _⟩ => ⟨S800000x128, .f32⟩
  | .hbm, ⟨76, _⟩ => ⟨S800000x128, .f32⟩
  | .hbm, ⟨77, _⟩ => ⟨S800000x64, .f32⟩
  | .hbm, ⟨78, _⟩ => ⟨S1x64, .f32⟩
  | .hbm, ⟨79, _⟩ => ⟨S800000x64, .f32⟩
  | .hbm, ⟨80, _⟩ => ⟨S800000x64, .f32⟩
  | .hbm, ⟨81, _⟩ => ⟨S_, .f32⟩
  | .hbm, ⟨82, _⟩ => ⟨S800000x64, .f32⟩
  | .hbm, ⟨83, _⟩ => ⟨S800000x64, .f32⟩
  | .hbm, ⟨84, _⟩ => ⟨S800000x2, .f32⟩
  | .hbm, ⟨85, _⟩ => ⟨S1x2, .f32⟩
  | .hbm, ⟨86, _⟩ => ⟨S800000x2, .f32⟩
  | .hbm, ⟨87, _⟩ => ⟨S800000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_cst : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call2_cst : Ref sig .tc := ⟨.hbm, 35, rfl⟩
abbrev main_call2_v0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst : Ref sig .tc := ⟨.hbm, 44, rfl⟩
abbrev main_v21 : Ref sig .tc := ⟨.hbm, 45, rfl⟩
abbrev main_v22 : Ref sig .tc := ⟨.hbm, 46, rfl⟩
abbrev main_cst_0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c : Ref sig .tc := ⟨.hbm, 51, rfl⟩
abbrev main_v26 : Ref sig .tc := ⟨.hbm, 52, rfl⟩
abbrev main_v27 : Ref sig .tc := ⟨.hbm, 53, rfl⟩
abbrev main_c_1 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_2 : Ref sig .tc := ⟨.hbm, 60, rfl⟩
abbrev main_v33 : Ref sig .tc := ⟨.hbm, 61, rfl⟩
abbrev main_v34 : Ref sig .tc := ⟨.hbm, 62, rfl⟩
abbrev main_c_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call3_cst : Ref sig .tc := ⟨.hbm, 74, rfl⟩
abbrev main_call3_v0 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call4_cst : Ref sig .tc := ⟨.hbm, 81, rfl⟩
abbrev main_call4_v0 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x64_S800000x64_1_0_0_1_n_n_wf : DotDims.WF S800000x128 S128x64 S800000x64 [1] [0] [0] [1] [] []
  dot_S800000x64_S64x2_S800000x2_1_0_0_1_n_n_wf : DotDims.WF S800000x64 S64x2 S800000x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x2_S800000x2_1_0_0_1_n_n : DotDims S800000x64 S64x2 S800000x2 where
  lhsContracting := [1]
  rhsContracting := [0]
  lhsNonContracting := [0]
  rhsNonContracting := [1]
  lhsBatch := []
  rhsBatch := []
  wf := dot_S800000x64_S64x2_S800000x2_1_0_0_1_n_n_wf

class Facts : Prop extends Facts₀ where

variable [Facts]
-- ==== Proof.RefStages.lean ====
/-
  The reference's result as a composition of named stages, at the ideal values.

  Node stage: three rectified dense layers  X ↦ max(X·W + b, 0)  on the [50000, 128] feature array, then the gate
  sigmoid(x₃·Wg + bg) · x₃, the sigmoid spelt as the quotient 1 / (1 + exp(−v)).
  Gather: the row of the gated array named by each entry of an index vector, an index below zero first raised by the
  number of rows.
  Edge stage: the two gathered [800000, 128] arrays joined side by side into [800000, 256], a rectified dense layer
  to 128 columns, one to 64 columns, and a last dense layer to 2 columns.
  The reference run's composed term is these stages applied to the arguments, by unfolding.
-/
import proofs.«132359_j80633716015170_2_alg».proof.Proof.Gen.ReferenceIdeal.Run
import Idealize.ShloMosaic.PureOps.Ideal.Laws

noncomputable section

namespace Cert.RefStages

open Idealize.ShloMosaic Idealize.ShloMosaic.TcCoe Idealize.SL.Sem Cert.ReferenceIdeal Cert.ReferenceIdeal.Gen

/-- One rectified dense layer on the node features: max(X·W + b, 0). -/
def layer50k (X : FVec Ideal S50000x128 .f32) (W : FVec Ideal S128x128 .f32) (b : FVec Ideal S128 .f32) :
    FVec Ideal S50000x128 .f32 :=
  maximumf (addf (Host.dotGeneral dot_S50000x128_S128x128_S50000x128_1_0_0_1_n_n none X W)
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- The three rectified layers. -/
def feat (h : FVec Ideal S50000x128 .f32) (W0 : FVec Ideal S128x128 .f32) (b0 : FVec Ideal S128 .f32)
    (W1 : FVec Ideal S128x128 .f32) (b1 : FVec Ideal S128 .f32) (W2 : FVec Ideal S128x128 .f32) (b2 : FVec Ideal S128 .f32) :
    FVec Ideal S50000x128 .f32 :=
  layer50k (layer50k (layer50k h W0 b0) W1 b1) W2 b2

/-- The gate's argument: x·Wg + bg. -/
def preGate (x : FVec Ideal S50000x128 .f32) (Wg : FVec Ideal S128x128 .f32) (bg : FVec Ideal S128 .f32) :
    FVec Ideal S50000x128 .f32 :=
  addf (Host.dotGeneral dot_S50000x128_S128x128_S50000x128_1_0_0_1_n_n none x Wg)
    (broadcastInDim S50000x128 ![0, 1] bcast_S1x128_S50000x128_0_1 (broadcastInDim S1x128 ![1] bcast_S128_S1x128_1 bg))

/-- The gate applied: (1 / (1 + exp(−v))) · u, entry by entry. -/
def gated (v u : FVec Ideal S50000x128 .f32) : FVec Ideal S50000x128 .f32 :=
  mulf (Host.divf (broadcastInDim S50000x128 ![] bcast_S_S50000x128 (constant (F := Ideal) S_ .f32 0x3F800000#32))
    (addf (broadcastInDim S50000x128 ![] bcast_S_S50000x128 (constant (F := Ideal) S_ .f32 0x3F800000#32))
      (Host.exp (Host.negf v)))) u

/-- The node stage: the gated features. -/
def nodeHost (h : FVec Ideal S50000x128 .f32) (W0 : FVec Ideal S128x128 .f32) (b0 : FVec Ideal S128 .f32)
    (W1 : FVec Ideal S128x128 .f32) (b1 : FVec Ideal S128 .f32) (W2 : FVec Ideal S128x128 .f32) (b2 : FVec Ideal S128 .f32)
    (Wg : FVec Ideal S128x128 .f32) (bg : FVec Ideal S128 .f32) : FVec Ideal S50000x128 .f32 :=
  gated (preGate (feat h W0 b0 W1 b1 W2 b2) Wg bg) (feat h W0 b0 W1 b1 W2 b2)

/-- An index vector as the gather's index column: an index below zero raised by 50000, then a trailing unit axis. -/
def idxCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The rows of X named by the index vector s. -/
def rowsOf {α : Type} (X : S50000x128.Idx → α) (s : IVec S800000 32) : S800000x128.Idx → α :=
  Host.gather gather_S50000x128_S800000x1_S800000x128_1_0_n_n_0_1_1128 X (idxCol s)

/-- The two gathered arrays side by side. -/
def joined (A B : FVec Ideal S800000x128 .f32) : FVec Ideal S800000x256 .f32 :=
  concatenate S800000x256 1 [⟨S800000x128, A⟩, ⟨S800000x128, B⟩] concatenates_S800000x128_S800000x128_S800000x256_d1

/-- The first readout layer: max(J·R0 + r0, 0). -/
def edge1 (J : FVec Ideal S800000x256 .f32) (R0 : FVec Ideal S256x128 .f32) (r0 : FVec Ideal S128 .f32) :
    FVec Ideal S800000x128 .f32 :=
  maximumf (addf (Host.dotGeneral dot_S800000x256_S256x128_S800000x128_1_0_0_1_n_n none J R0)
      (broadcastInDim S800000x128 ![0, 1] bcast_S1x128_S800000x128_0_1 (broadcastInDim S1x128 ![1] bcast_S128_S1x128_1 r0)))
    (broadcastInDim S800000x128 ![] bcast_S_S800000x128 (constant (F := Ideal) S_ .f32 0x00000000#32))

/-- The second readout layer: max(Y·R1 + r1, 0). -/
def edge2 (Y : FVec Ideal S800000x128 .f32) (R1 : FVec Ideal S128x64 .f32) (r1 : FVec Ideal S64 .f32) :
    FVec Ideal S800000x64 .f32 :=
  maximumf (addf (Host.dotGeneral dot_S800000x128_S128x64_S800000x64_1_0_0_1_n_n none Y R1)
      (broadcastInDim S800000x64 ![0, 1] bcast_S1x64_S800000x64_0_1 (broadcastInDim S1x64 ![1] bcast_S64_S1x64_1 r1)))
    (broadcastInDim S800000x64 ![] bcast_S_S800000x64 (constant (F := Ideal) S_ .f32 0x00000000#32))

/-- The last readout layer: Y·R2 + r2. -/
def edge3 (Y : FVec Ideal S800000x64 .f32) (R2 : FVec Ideal S64x2 .f32) (r2 : FVec Ideal S2 .f32) :
    FVec Ideal S800000x2 .f32 :=
  addf (Host.dotGeneral dot_S800000x64_S64x2_S800000x2_1_0_0_1_n_n none Y R2)
    (broadcastInDim S800000x2 ![0, 1] bcast_S1x2_S800000x2_0_1 (broadcastInDim S1x2 ![1] bcast_S2_S1x2_1 r2))

/-- The edge stage on two gathered arrays. -/
def edgeHost (A B : FVec Ideal S800000x128 .f32) (R0 : FVec Ideal S256x128 .f32) (r0 : FVec Ideal S128 .f32)
    (R1 : FVec Ideal S128x64 .f32) (r1 : FVec Ideal S64 .f32) (R2 : FVec Ideal S64x2 .f32) (r2 : FVec Ideal S2 .f32) :
    FVec Ideal S800000x2 .f32 :=
  edge3 (edge2 (edge1 (joined A B) R0 r0) R1 r1) R2 r2

/-- The whole reference as a function of the seventeen argument arrays. -/
def wholeHost (h : FVec Ideal S50000x128 .f32) (src dst : IVec S800000 32)
    (W0 : FVec Ideal S128x128 .f32) (b0 : FVec Ideal S128 .f32) (W1 : FVec Ideal S128x128 .f32) (b1 : FVec Ideal S128 .f32)
    (W2 : FVec Ideal S128x128 .f32) (b2 : FVec Ideal S128 .f32) (Wg : FVec Ideal S128x128 .f32) (bg : FVec Ideal S128 .f32)
    (R0 : FVec Ideal S256x128 .f32) (r0 : FVec Ideal S128 .f32) (R1 : FVec Ideal S128x64 .f32) (r1 : FVec Ideal S64 .f32)
    (R2 : FVec Ideal S64x2 .f32) (r2 : FVec Ideal S2 .f32) : FVec Ideal S800000x2 .f32 :=
  edgeHost (rowsOf (nodeHost h W0 b0 W1 b1 W2 b2 Wg bg) src) (rowsOf (nodeHost h W0 b0 W1 b1 W2 b2 Wg bg) dst)
    R0 r0 R1 r1 R2 r2

/-- The reference run's composed term is the stages applied to the launch contents of the arguments. -/
theorem res_eq (m : (ℓ : Loc nD τ sig) → Buf (Elt Ideal) ℓ) (c : Dev nD) :
    Cert.ReferenceIdeal.Value.res_main_v54 (F := Ideal) m c
      = wholeHost (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) := by
  unfold Cert.ReferenceIdeal.Value.res_main_v54 wholeHost edgeHost edge3 edge2 edge1 joined rowsOf idxCol nodeHost gated
    preGate feat layer50k
  rfl

end Cert.RefStages

end
-- ==== Proof.KernelRun.lean ====
/-
  The idealized kernel's run with its result array named.

  @main is three segments: the node kernel's pipeline, the host operations that gather rows of its result and cut
  the first readout matrix in two, and the readout kernel's pipeline.  Every weakly fair execution terminates; at the
  end every unscoped buffer holds the contents obtained by folding the three segments from the launch memory.  Here
  that run is stated keeping the result buffer (the readout kernel's output array) beside the unchanged arguments.
-/
import proofs.«132359_j80633716015170_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents and the
    argument arrays as launched. -/
theorem run : θ_run defs (onTc (τ := τ) (main (F := F))) ⟨m, fun _ => 0, ρ⟩ (fun r => ∀ c : Dev nD,
      r.2.mem ((c.tc : Thread nD τ).loc main_v17) = W3 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v17 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c),
       (h c _ (mem_uc main_arg15 (by decide))).trans (W3_main_arg15 m ρ c),
       (h c _ (mem_uc main_arg16 (by decide))).trans (W3_main_arg16 m ρ c)⟩)

end Cert.KernelIdeal.RunValue

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«132359_j80633716015170_2_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibTwoLayerRows.lean ====
/-
  Two dense layers on a block of rows, at the ideal values.

  A perceptron  z ↦ max(z·Wa + ba, 0)·Wb + bb  (optionally followed by a last max with a constant) applied to every
  row of an [N, K] array can be computed one block of R consecutive rows at a time: the block's rows of the input
  (here a sum of two arrays) meet the whole weight matrices and one-row biases, and the matrix products run on
  operands first narrowed to another float format — the identity on the extended reals.  Each theorem says: the
  block computation read at an entry y equals the whole-array host computation read where y sits in the array.
  A block of rows is described by an embedding of its entries that shifts the row by an offset and keeps the column.
-/
import Idealize.ShloMosaic.PureOps.Ideal.Laws
import Idealize.ShloMosaic.Lib.ValueIdx
import Idealize.ShloMosaic.Lib.Pipeline.Value
import proofs.«132359_j80633716015170_2_alg».proof.Proof.LibRowBlocks

noncomputable section

namespace Cert.Lib.TwoLayerRows

open Idealize.ShloMosaic Idealize.ShloMosaic.ValueIdx Cert.Lib.PlainDot Cert.Bridge
open scoped BigOperators

variable {R N K H C : Nat}

/-- An embedding of the entries of an [R, C] block into an [N, C] array as rows o … o + R − 1, columns kept. -/
structure RowEmb {C : Nat} (e : (⟨2, ![R, C]⟩ : Shape).Idx → (⟨2, ![N, C]⟩ : Shape).Idx) (o : Nat) : Prop where
  row : ∀ j, (e j 0).val = o + (j 0).val
  col : ∀ j, (e j 1).val = (j 1).val

/-- Entry (r, k) of the left block sits in the array's row of the output entry (r, c), column k. -/
theorem RowEmb.rowIdx_eq {eK : (⟨2, ![R, K]⟩ : Shape).Idx → (⟨2, ![N, K]⟩ : Shape).Idx}
    {eC : (⟨2, ![R, C]⟩ : Shape).Idx → (⟨2, ![N, C]⟩ : Shape).Idx} {o : Nat}
    (hK : RowEmb eK o) (hC : RowEmb eC o) (y : (⟨2, ![R, C]⟩ : Shape).Idx) (k : Fin K) :
    eK (rowIdx y k) = rowIdx (eC y) k :=
  funext fun a => Fin.ext (by
    match a with
    | ⟨0, _⟩ => exact (hK.row _).trans (hC.row y).symm
    | ⟨1, _⟩ => exact hK.col _)

/-- The right factor is whole: entry (k, c) of it is read at the column of the output entry. -/
theorem RowEmb.colIdx_eq {eC : (⟨2, ![R, C]⟩ : Shape).Idx → (⟨2, ![N, C]⟩ : Shape).Idx} {o : Nat}
    (hC : RowEmb eC o) (y : (⟨2, ![R, C]⟩ : Shape).Idx) (k : Fin K) :
    (colIdx y k : (⟨2, ![K, C]⟩ : Shape).Idx) = colIdx (eC y) k :=
  funext fun a => Fin.ext (by
    match a with
    | ⟨0, _⟩ => rfl
    | ⟨1, _⟩ => exact (hC.col y).symm)

/-- The one-row bias is whole: it is read at the column of the output entry. -/
theorem RowEmb.rowZero_eq {eC : (⟨2, ![R, C]⟩ : Shape).Idx → (⟨2, ![N, C]⟩ : Shape).Idx} {o : Nat}
    (hC : RowEmb eC o) (y : (⟨2, ![R, C]⟩ : Shape).Idx) :
    (rowZero y : (⟨2, ![1, C]⟩ : Shape).Idx) = rowZero (eC y) :=
  funext fun a => Fin.ext (by
    match a with
    | ⟨0, _⟩ => rfl
    | ⟨1, _⟩ => exact (hC.col y).symm)

/-- THE FIRST LAYER of a row block: the two input blocks added, narrowed, multiplied by the narrowed weights into
    zeros, the bias row stretched over the rows, maximum with a constant — against the host's whole arrays. -/
theorem first_layer_block {ψ : FTy} (hψ : ψ.bits < FTy.f32.bits)
    (d : DotDims ⟨2, ![R, K]⟩ ⟨2, ![K, H]⟩ ⟨2, ![R, H]⟩) (hd : d = DotDims.plain R K H)
    (D : DotDims ⟨2, ![N, K]⟩ ⟨2, ![K, H]⟩ ⟨2, ![N, H]⟩) (hD : D = DotDims.plain N K H)
    (prec prec' : Option ContractPrecision)
    (X A : FVec Ideal ⟨2, ![N, K]⟩ .f32) (Wa : FVec Ideal ⟨2, ![K, H]⟩ .f32) (Ba : FVec Ideal ⟨2, ![1, H]⟩ .f32)
    (x0 x1 : FVec Ideal ⟨2, ![R, K]⟩ .f32)
    (eK : (⟨2, ![R, K]⟩ : Shape).Idx → (⟨2, ![N, K]⟩ : Shape).Idx)
    (eH : (⟨2, ![R, H]⟩ : Shape).Idx → (⟨2, ![N, H]⟩ : Shape).Idx) (o : Nat)
    (hK : RowEmb eK o) (hH : RowEmb eH o)
    (hx0 : ∀ j, x0 j = X (eK j)) (hx1 : ∀ j, x1 j = A (eK j))
    (hb : (⟨2, ![1, H]⟩ : Shape).Broadcasts ⟨2, ![R, H]⟩)
    (hB : (⟨2, ![1, H]⟩ : Shape).BroadcastsInDim ⟨2, ![N, H]⟩ ![0, 1])
    (hZ : (⟨0, ![]⟩ : Shape).BroadcastsInDim ⟨2, ![N, H]⟩ ![]) (z : BitVec 32)
    (y : (⟨2, ![R, H]⟩ : Shape).Idx) :
    maximumf (addf (matmul d prec (truncf ψ (addf x0 x1) hψ) (truncf ψ Wa hψ) (constant ⟨2, ![R, H]⟩ .f32 0x00000000#32))
          (broadcastTo ⟨2, ![R, H]⟩ Ba hb))
        (broadcast ⟨2, ![R, H]⟩ (Scalar.ofBits (F := Ideal) .f32 z)) y
      = maximumf (addf (Host.dotGeneral D prec' (addf X A) Wa) (broadcastInDim ⟨2, ![N, H]⟩ ![0, 1] hB Ba))
        (broadcastInDim ⟨2, ![N, H]⟩ ![] hZ (constant (F := Ideal) ⟨0, ![]⟩ .f32 z)) (eH y) :=
  embed_block ψ ψ d hd D hD prec prec' (addf X A) Wa Ba (truncf ψ (addf x0 x1) hψ) (truncf ψ Wa hψ) Ba
    eK id id eH
    (fun j => by rw [truncf_apply, addf_apply, addf_apply, hx0, hx1])
    (fun j => truncf_apply Wa hψ j) (fun _ => rfl)
    (fun y k => hK.rowIdx_eq hH y k) (fun y k => hH.colIdx_eq y k) (fun y => hH.rowZero_eq y)
    hb hB hZ z y

/-- BOTH LAYERS of a row block, ending in a maximum with the constant. -/
theorem two_layers_max_block {ψ : FTy} (hψ : ψ.bits < FTy.f32.bits)
    (dA : DotDims ⟨2, ![R, K]⟩ ⟨2, ![K, H]⟩ ⟨2, ![R, H]⟩) (hdA : dA = DotDims.plain R K H)
    (DA : DotDims ⟨2, ![N, K]⟩ ⟨2, ![K, H]⟩ ⟨2, ![N, H]⟩) (hDA : DA = DotDims.plain N K H)
    (dB : DotDims ⟨2, ![R, H]⟩ ⟨2, ![H, C]⟩ ⟨2, ![R, C]⟩) (hdB : dB = DotDims.plain R H C)
    (DB : DotDims ⟨2, ![N, H]⟩ ⟨2, ![H, C]⟩ ⟨2, ![N, C]⟩) (hDB : DB = DotDims.plain N H C)
    (prec prec' : Option ContractPrecision)
    (X A : FVec Ideal ⟨2, ![N, K]⟩ .f32) (Wa : FVec Ideal ⟨2, ![K, H]⟩ .f32) (Ba : FVec Ideal ⟨2, ![1, H]⟩ .f32)
    (Wb : FVec Ideal ⟨2, ![H, C]⟩ .f32) (Bb : FVec Ideal ⟨2, ![1, C]⟩ .f32)
    (x0 x1 : FVec Ideal ⟨2, ![R, K]⟩ .f32)
    (eK : (⟨2, ![R, K]⟩ : Shape).Idx → (⟨2, ![N, K]⟩ : Shape).Idx)
    (eH : (⟨2, ![R, H]⟩ : Shape).Idx → (⟨2, ![N, H]⟩ : Shape).Idx)
    (eC : (⟨2, ![R, C]⟩ : Shape).Idx → (⟨2, ![N, C]⟩ : Shape).Idx) (o : Nat)
    (hK : RowEmb eK o) (hH : RowEmb eH o) (hC : RowEmb eC o)
    (hx0 : ∀ j, x0 j = X (eK j)) (hx1 : ∀ j, x1 j = A (eK j))
    (hbA : (⟨2, ![1, H]⟩ : Shape).Broadcasts ⟨2, ![R, H]⟩)
    (hBA : (⟨2, ![1, H]⟩ : Shape).BroadcastsInDim ⟨2, ![N, H]⟩ ![0, 1])
    (hZA : (⟨0, ![]⟩ : Shape).BroadcastsInDim ⟨2, ![N, H]⟩ ![])
    (hbB : (⟨2, ![1, C]⟩ : Shape).Broadcasts ⟨2, ![R, C]⟩)
    (hBB : (⟨2, ![1, C]⟩ : Shape).BroadcastsInDim ⟨2, ![N, C]⟩ ![0, 1])
    (hZB : (⟨0, ![]⟩ : Shape).BroadcastsInDim ⟨2, ![N, C]⟩ ![]) (z : BitVec 32)
    (y : (⟨2, ![R, C]⟩ : Shape).Idx) :
    maximumf (addf (matmul dB prec
            (truncf ψ (maximumf (addf (matmul dA prec (truncf ψ (addf x0 x1) hψ) (truncf ψ Wa hψ) (constant ⟨2, ![R, H]⟩ .f32 0x00000000#32))
                (broadcastTo ⟨2, ![R, H]⟩ Ba hbA)) (broadcast ⟨2, ![R, H]⟩ (Scalar.ofBits (F := Ideal) .f32 z))) hψ)
            (truncf ψ Wb hψ) (constant ⟨2, ![R, C]⟩ .f32 0x00000000#32))
          (broadcastTo ⟨2, ![R, C]⟩ Bb hbB))
        (broadcast ⟨2, ![R, C]⟩ (Scalar.ofBits (F := Ideal) .f32 z)) y
      = maximumf (addf (Host.dotGeneral DB prec'
            (maximumf (addf (Host.dotGeneral DA prec' (addf X A) Wa) (broadcastInDim ⟨2, ![N, H]⟩ ![0, 1] hBA Ba))
              (broadcastInDim ⟨2, ![N, H]⟩ ![] hZA (constant (F := Ideal) ⟨0, ![]⟩ .f32 z)))
            Wb) (broadcastInDim ⟨2, ![N, C]⟩ ![0, 1] hBB Bb))
        (broadcastInDim ⟨2, ![N, C]⟩ ![] hZB (constant (F := Ideal) ⟨0, ![]⟩ .f32 z)) (eC y) :=
  embed_block ψ ψ dB hdB DB hDB prec prec' _ Wb Bb _ (truncf ψ Wb hψ) Bb
    eH id id eC
    (fun j => (truncf_apply _ hψ j).trans
      (first_layer_block hψ dA hdA DA hDA prec prec' X A Wa Ba x0 x1 eK eH o hK hH hx0 hx1 hbA hBA hZA z j))
    (fun j => truncf_apply Wb hψ j) (fun _ => rfl)
    (fun y k => hH.rowIdx_eq hC y k) (fun y k => hC.colIdx_eq y k) (fun y => hC.rowZero_eq y)
    hbB hBB hZB z y

/-- BOTH LAYERS of a row block, the second one without a final maximum. -/
theorem two_layers_block {ψ : FTy} (hψ : ψ.bits < FTy.f32.bits)
    (dA : DotDims ⟨2, ![R, K]⟩ ⟨2, ![K, H]⟩ ⟨2, ![R, H]⟩) (hdA : dA = DotDims.plain R K H)
    (DA : DotDims ⟨2, ![N, K]⟩ ⟨2, ![K, H]⟩ ⟨2, ![N, H]⟩) (hDA : DA = DotDims.plain N K H)
    (dB : DotDims ⟨2, ![R, H]⟩ ⟨2, ![H, C]⟩ ⟨2, ![R, C]⟩) (hdB : dB = DotDims.plain R H C)
    (DB : DotDims ⟨2, ![N, H]⟩ ⟨2, ![H, C]⟩ ⟨2, ![N, C]⟩) (hDB : DB = DotDims.plain N H C)
    (prec prec' : Option ContractPrecision)
    (X A : FVec Ideal ⟨2, ![N, K]⟩ .f32) (Wa : FVec Ideal ⟨2, ![K, H]⟩ .f32) (Ba : FVec Ideal ⟨2, ![1, H]⟩ .f32)
    (Wb : FVec Ideal ⟨2, ![H, C]⟩ .f32) (Bb : FVec Ideal ⟨2, ![1, C]⟩ .f32)
    (x0 x1 : FVec Ideal ⟨2, ![R, K]⟩ .f32)
    (eK : (⟨2, ![R, K]⟩ : Shape).Idx → (⟨2, ![N, K]⟩ : Shape).Idx)
    (eH : (⟨2, ![R, H]⟩ : Shape).Idx → (⟨2, ![N, H]⟩ : Shape).Idx)
    (eC : (⟨2, ![R, C]⟩ : Shape).Idx → (⟨2, ![N, C]⟩ : Shape).Idx) (o : Nat)
    (hK : RowEmb eK o) (hH : RowEmb eH o) (hC : RowEmb eC o)
    (hx0 : ∀ j, x0 j = X (eK j)) (hx1 : ∀ j, x1 j = A (eK j))
    (hbA : (⟨2, ![1, H]⟩ : Shape).Broadcasts ⟨2, ![R, H]⟩)
    (hBA : (⟨2, ![1, H]⟩ : Shape).BroadcastsInDim ⟨2, ![N, H]⟩ ![0, 1])
    (hZA : (⟨0, ![]⟩ : Shape).BroadcastsInDim ⟨2, ![N, H]⟩ ![])
    (hbB : (⟨2, ![1, C]⟩ : Shape).Broadcasts ⟨2, ![R, C]⟩)
    (hBB : (⟨2, ![1, C]⟩ : Shape).BroadcastsInDim ⟨2, ![N, C]⟩ ![0, 1]) (z : BitVec 32)
    (y : (⟨2, ![R, C]⟩ : Shape).Idx) :
    addf (matmul dB prec
          (truncf ψ (maximumf (addf (matmul dA prec (truncf ψ (addf x0 x1) hψ) (truncf ψ Wa hψ) (constant ⟨2, ![R, H]⟩ .f32 0x00000000#32))
              (broadcastTo ⟨2, ![R, H]⟩ Ba hbA)) (broadcast ⟨2, ![R, H]⟩ (Scalar.ofBits (F := Ideal) .f32 z))) hψ)
          (truncf ψ Wb hψ) (constant ⟨2, ![R, C]⟩ .f32 0x00000000#32))
        (broadcastTo ⟨2, ![R, C]⟩ Bb hbB) y
      = addf (Host.dotGeneral DB prec'
            (maximumf (addf (Host.dotGeneral DA prec' (addf X A) Wa) (broadcastInDim ⟨2, ![N, H]⟩ ![0, 1] hBA Ba))
              (broadcastInDim ⟨2, ![N, H]⟩ ![] hZA (constant (F := Ideal) ⟨0, ![]⟩ .f32 z)))
            Wb) (broadcastInDim ⟨2, ![N, C]⟩ ![0, 1] hBB Bb) (eC y) :=
  output_block ψ ψ dB hdB DB hDB prec prec' _ Wb Bb _ (truncf ψ Wb hψ) Bb
    eH id id eC
    (fun j => (truncf_apply _ hψ j).trans
      (first_layer_block hψ dA hdA DA hDA prec prec' X A Wa Ba x0 x1 eK eH o hK hH hx0 hx1 hbA hBA hZA z j))
    (fun j => truncf_apply Wb hψ j) (fun _ => rfl)
    (fun y k => hH.rowIdx_eq hC y k) (fun y k => hC.colIdx_eq y k) (fun y => hC.rowZero_eq y)
    hbB hBB y

end Cert.Lib.TwoLayerRows

end
-- ==== Proof.LibDenseLayers.lean ====
/-
  Dense layers on a block of rows with a vector bias, and a contraction taken in two halves, at the ideal values.

  A dense layer  x ↦ x·W + b  (optionally followed by a maximum with a constant) applied to every row of an [N, K]
  array can be computed one block of R consecutive rows at a time.  In a kernel the bias is a [C] vector laid out as
  a one-row matrix and stretched down the block, and the weights are first narrowed to another float format — the
  identity on the extended reals; on the host the bias is broadcast along a new leading axis and then down the N
  rows.  Each theorem says: the block computation read at an entry y equals the whole-array host computation read
  where y sits in the array.

  The sigmoid gate: the host's  1 / (1 + exp (−v))  times u  is the logistic function of v times u, entry by entry,
  on every extended real (the logistic function is that quotient by definition, and the bit pattern of 1.0 denotes 1).

  A contraction over K + K positions is the sum of the contractions over the two halves: the left operand is two
  arrays joined along the contracted axis, the right operand is cut into its top and bottom halves.  Addition of
  extended reals is commutative and associative, so no finiteness is needed.

  A block of R consecutive rows starting at row o is placed in an [N, C] array by `shiftRow`.
-/
import Idealize.ShloMosaic.PureOps.Ideal.Laws
import Idealize.ShloMosaic.Lib.ValueIdx
import Idealize.ShloMosaic.Lib.Pipeline.Value
import proofs.«132359_j80633716015170_2_alg».proof.Proof.LibTwoLayerRows

noncomputable section

namespace Cert.Lib.DenseLayers

open Idealize.ShloMosaic Idealize.ShloMosaic.ValueIdx Cert.Lib.PlainDot Cert.Bridge Cert.Lib.TwoLayerRows
open scoped BigOperators

variable {R N K C : Nat}

/-- The entry of an [N, C] array where entry j of the block of rows o, o + 1, …, o + R − 1 sits: row o + r, same column. -/
def shiftRow (o : Nat) (h : o + R ≤ N) (j : (⟨2, ![R, C]⟩ : Shape).Idx) : (⟨2, ![N, C]⟩ : Shape).Idx := fun a => match a with
  | ⟨0, _⟩ => ⟨o + (j 0).val, by have hlt : (j 0).val < R := (j 0).isLt; show o + (j 0).val < N; omega⟩
  | ⟨1, _⟩ => ⟨(j 1).val, (j 1).isLt⟩

/-- It shifts the row by o and keeps the column. -/
theorem shiftRow_emb (o : Nat) (h : o + R ≤ N) : RowEmb (shiftRow (C := C) o h) o := ⟨fun _ => rfl, fun _ => rfl⟩

/-- A RECTIFIED DENSE LAYER of a row block: the block times the narrowed weights into zeros, the bias vector as a
    one-row matrix stretched down the rows, maximum with a constant — against the host's whole arrays. -/
theorem relu_layer_block {φ ψ : FTy} (hψ : ψ.bits < FTy.f32.bits)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (b : FVec Ideal ⟨1, ![C]⟩ .f32)
    (x0 : FVec Ideal ⟨2, ![R, K]⟩ φ)
    (eK : (⟨2, ![R, K]⟩ : Shape).Idx → (⟨2, ![N, K]⟩ : Shape).Idx)
    (eC : (⟨2, ![R, C]⟩ : Shape).Idx → (⟨2, ![N, C]⟩ : Shape).Idx) (o : Nat)
    (hK : RowEmb eK o) (hC : RowEmb eC o)
    (hx0 : ∀ j, x0 j = X (eK j))
    (hs : (⟨1, ![C]⟩ : Shape).ShapeCasts ⟨2, ![1, C]⟩)
    (hb1 : (⟨1, ![C]⟩ : Shape).BroadcastsInDim ⟨2, ![1, C]⟩ ![1])
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 (truncf ψ W hψ) (constant ⟨2, ![R, C]⟩ .f32 0x00000000#32))
          (broadcastTo ⟨2, ![R, C]⟩ (shapeCast ⟨2, ![1, C]⟩ b hs) hb))
        (broadcast ⟨2, ![R, C]⟩ (Scalar.ofBits (F := Ideal) .f32 z)) y
      = maximumf (addf (Host.dotGeneral D prec' X W)
          (broadcastInDim ⟨2, ![N, C]⟩ ![0, 1] hB (broadcastInDim ⟨2, ![1, C]⟩ ![1] hb1 b)))
        (broadcastInDim ⟨2, ![N, C]⟩ ![] hZ (constant (F := Ideal) ⟨0, ![]⟩ .f32 z)) (eC y) :=
  embed_block φ ψ d hd D hD prec prec' X W (broadcastInDim ⟨2, ![1, C]⟩ ![1] hb1 b) x0 (truncf ψ W hψ)
    (shapeCast ⟨2, ![1, C]⟩ b hs) eK id id eC hx0 (fun j => truncf_apply W hψ j)
    (fun j => by rw [reshapeRow_eq b hs hb1]; rfl)
    (fun y k => hK.rowIdx_eq hC y k) (fun y k => hC.colIdx_eq y k) (fun y => hC.rowZero_eq y) hb hB hZ z y

/-- A DENSE LAYER of a row block without the maximum: product into zeros plus the bias row. -/
theorem linear_layer_block {φ ψ : FTy} (hψ : ψ.bits < FTy.f32.bits)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (b : FVec Ideal ⟨1, ![C]⟩ .f32)
    (x0 : FVec Ideal ⟨2, ![R, K]⟩ φ)
    (eK : (⟨2, ![R, K]⟩ : Shape).Idx → (⟨2, ![N, K]⟩ : Shape).Idx)
    (eC : (⟨2, ![R, C]⟩ : Shape).Idx → (⟨2, ![N, C]⟩ : Shape).Idx) (o : Nat)
    (hK : RowEmb eK o) (hC : RowEmb eC o)
    (hx0 : ∀ j, x0 j = X (eK j))
    (hs : (⟨1, ![C]⟩ : Shape).ShapeCasts ⟨2, ![1, C]⟩)
    (hb1 : (⟨1, ![C]⟩ : Shape).BroadcastsInDim ⟨2, ![1, C]⟩ ![1])
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 (truncf ψ W hψ) (constant ⟨2, ![R, C]⟩ .f32 0x00000000#32))
          (broadcastTo ⟨2, ![R, C]⟩ (shapeCast ⟨2, ![1, C]⟩ b hs) hb) y
      = addf (Host.dotGeneral D prec' X W)
          (broadcastInDim ⟨2, ![N, C]⟩ ![0, 1] hB (broadcastInDim ⟨2, ![1, C]⟩ ![1] hb1 b)) (eC y) :=
  output_block φ ψ d hd D hD prec prec' X W (broadcastInDim ⟨2, ![1, C]⟩ ![1] hb1 b) x0 (truncf ψ W hψ)
    (shapeCast ⟨2, ![1, C]⟩ b hs) eK id id eC hx0 (fun j => truncf_apply W hψ j)
    (fun j => by rw [reshapeRow_eq b hs hb1]; rfl)
    (fun y k => hK.rowIdx_eq hC y k) (fun y k => hC.colIdx_eq y k) (fun y => hC.rowZero_eq y) hb hB y

/-- The bit pattern of 1.0 denotes the real number 1. -/
theorem ofBits_one_f32 : Ideal.ofBits .f32 0x3F800000#32 = 1 := by
  simp [Ideal.ofBits, Ideal.ieee, -EReal.coe_mul]; norm_num

/-- THE SIGMOID GATE: the host's quotient 1 / (1 + exp (−v)) times u, at an entry, is the logistic function of v's
    entry times u's entry. -/
theorem hostGate_apply {s : Shape} (h1 : (⟨0, ![]⟩ : Shape).BroadcastsInDim s ![])
    (v u : FVec Ideal s .f32) (i : s.Idx) :
    mulf (Host.divf (broadcastInDim s ![] h1 (constant (F := Ideal) ⟨0, ![]⟩ .f32 0x3F800000#32))
        (addf (broadcastInDim s ![] h1 (constant (F := Ideal) ⟨0, ![]⟩ .f32 0x3F800000#32)) (Host.exp (Host.negf v)))) u i
      = Ideal.logistic (v i) * u i := by
  have hsplat : broadcastInDim s ![] h1 (constant (F := Ideal) ⟨0, ![]⟩ .f32 0x3F800000#32) i = 1 :=
    (broadcastInDim_apply ![] h1 _ i ix0 (fun a => a.elim0)).trans ofBits_one_f32
  show Ideal.div (broadcastInDim s ![] h1 (constant (F := Ideal) ⟨0, ![]⟩ .f32 0x3F800000#32) i)
      (broadcastInDim s ![] h1 (constant (F := Ideal) ⟨0, ![]⟩ .f32 0x3F800000#32) i + Ideal.exp (-(v i))) * u i = _
  rw [hsplat]
  rfl

/-- The kernel's gate at an entry: the logistic function of v's entry times u's entry. -/
theorem gate_apply {s : Shape} (v u : FVec Ideal s .f32) (i : s.Idx) :
    mulf (logistic v) u i = Ideal.logistic (v i) * u i := rfl

/-- A CONTRACTION IN TWO HALVES: at an entry i of the product of a join J (two arrays side by side along the contracted
    axis) with W, the sum over the K + K contracted positions is the sum over the first K plus the sum over the last
    K; so it is a product whose left rows are J's first K columns and whose right factor is W's top K rows, plus a
    product with J's last K columns and W's bottom K rows — those two products read at an entry y of a row block. -/
theorem mm_halves_block (xs xd : (⟨2, ![R, K]⟩ : Shape).Idx → EReal) (ws wd : (⟨2, ![K, C]⟩ : Shape).Idx → EReal)
    (J : (⟨2, ![N, K + K]⟩ : Shape).Idx → EReal) (W : (⟨2, ![K + K, C]⟩ : Shape).Idx → EReal)
    (y : (⟨2, ![R, C]⟩ : Shape).Idx) (i : (⟨2, ![N, C]⟩ : Shape).Idx)
    (hl : ∀ k : Fin K, xs (rowIdx y k) = J (rowIdx i (Fin.castAdd K k)))
    (hr : ∀ k : Fin K, xd (rowIdx y k) = J (rowIdx i (Fin.natAdd K k)))
    (hwl : ∀ k : Fin K, ws (colIdx y k) = W (colIdx i (Fin.castAdd K k)))
    (hwr : ∀ k : Fin K, wd (colIdx y k) = W (colIdx i (Fin.natAdd K k))) :
    mm xs ws y + mm xd wd y = mm J W i := by
  unfold mm
  rw [Fin.sum_univ_add]
  congr 1
  · exact Finset.sum_congr rfl fun k _ => by rw [hl, hwl]
  · exact Finset.sum_congr rfl fun k _ => by rw [hr, hwr]

end Cert.Lib.DenseLayers

end
-- ==== Proof.NodeStage.lean ====
/-
  The node kernel's block against the reference's node stage, at the ideal values.

  The node kernel computes, for a block of 10000 consecutive rows of the feature array, three rectified dense layers
  (operands narrowed to a shorter float format before each product — the identity on the extended reals), the gate's
  argument x₃·Wg + bg, and the product logistic(x₃·Wg + bg) · x₃.  Row r of the block depends only on row r of the
  input block, so the block's entry (r, c) is the reference's whole-array node stage at (o + r, c), where o is the
  block's first row.  The reference spells the gate as 1 / (1 + exp(−v)); the logistic function is that quotient.
-/
import proofs.«132359_j80633716015170_2_alg».proof.Proof.Gen.KernelIdeal.Skeleton
import proofs.«132359_j80633716015170_2_alg».proof.Proof.RefStages
import proofs.«132359_j80633716015170_2_alg».proof.Proof.LibDenseLayers

noncomputable section

namespace Cert.NodeStage

open Idealize.ShloMosaic Idealize.ShloMosaic.ValueIdx Cert.Lib.PlainDot Cert.Bridge Cert.Lib.TwoLayerRows
open Cert.Lib.DenseLayers Cert.RefStages

/-- One rectified dense layer as the node kernel computes it on a block of rows. -/
def blockLayer (x : FVec Ideal Cert.KernelIdeal.S10000x128 .bf16) (W : FVec Ideal Cert.KernelIdeal.S128x128 .f32)
    (b : FVec Ideal Cert.KernelIdeal.S128 .f32) : FVec Ideal Cert.KernelIdeal.S10000x128 .f32 :=
  maximumf (addf (matmul Cert.KernelIdeal.dot_S10000x128_S128x128_S10000x128_1_0_0_1_n_n none x
        (truncf .bf16 W Cert.KernelIdeal.Gen.bitsLt_bf16_f32) (constant Cert.KernelIdeal.S10000x128 .f32 0x00000000#32))
      (broadcastTo Cert.KernelIdeal.S10000x128 (shapeCast Cert.KernelIdeal.S1x128 b Cert.KernelIdeal.Gen.shapeCasts_S128_S1x128)
        Cert.KernelIdeal.Gen.broadcasts_S1x128_S10000x128))
    (broadcast Cert.KernelIdeal.S10000x128 (Scalar.ofBits (F := Ideal) .f32 0x00000000#32))

/-- The gate's argument as the node kernel computes it on a block of rows. -/
def blockPreGate (x : FVec Ideal Cert.KernelIdeal.S10000x128 .bf16) (W : FVec Ideal Cert.KernelIdeal.S128x128 .f32)
    (b : FVec Ideal Cert.KernelIdeal.S128 .f32) : FVec Ideal Cert.KernelIdeal.S10000x128 .f32 :=
  addf (matmul Cert.KernelIdeal.dot_S10000x128_S128x128_S10000x128_1_0_0_1_n_n none x
        (truncf .bf16 W Cert.KernelIdeal.Gen.bitsLt_bf16_f32) (constant Cert.KernelIdeal.S10000x128 .f32 0x00000000#32))
      (broadcastTo Cert.KernelIdeal.S10000x128 (shapeCast Cert.KernelIdeal.S1x128 b Cert.KernelIdeal.Gen.shapeCasts_S128_S1x128)
        Cert.KernelIdeal.Gen.broadcasts_S1x128_S10000x128)

/-- A rectified layer of a block whose rows sit at rows o, o + 1, … of the array is the array's layer there. -/
theorem blockLayer_eq (X : FVec Ideal Cert.ReferenceIdeal.S50000x128 .f32) (W : FVec Ideal Cert.ReferenceIdeal.S128x128 .f32)
    (b : FVec Ideal Cert.ReferenceIdeal.S128 .f32) (x : FVec Ideal Cert.KernelIdeal.S10000x128 .bf16)
    (e : Cert.KernelIdeal.S10000x128.Idx → Cert.ReferenceIdeal.S50000x128.Idx) (o : Nat) (he : RowEmb e o)
    (hx : ∀ j, x j = X (e j)) (y : Cert.KernelIdeal.S10000x128.Idx) :
    blockLayer x W b y = layer50k X W b (e y) :=
  relu_layer_block (φ := .bf16) (ψ := .bf16) Cert.KernelIdeal.Gen.bitsLt_bf16_f32
    Cert.KernelIdeal.dot_S10000x128_S128x128_S10000x128_1_0_0_1_n_n rfl
    Cert.ReferenceIdeal.dot_S50000x128_S128x128_S50000x128_1_0_0_1_n_n rfl none none X W b x e e o he he hx
    Cert.KernelIdeal.Gen.shapeCasts_S128_S1x128 Cert.ReferenceIdeal.Gen.bcast_S128_S1x128_1
    Cert.KernelIdeal.Gen.broadcasts_S1x128_S10000x128 Cert.ReferenceIdeal.Gen.bcast_S1x128_S50000x128_0_1
    Cert.ReferenceIdeal.Gen.bcast_S_S50000x128 0x00000000#32 y

/-- The gate's argument of a block is the array's there. -/
theorem blockPreGate_eq (X : FVec Ideal Cert.ReferenceIdeal.S50000x128 .f32) (W : FVec Ideal Cert.ReferenceIdeal.S128x128 .f32)
    (b : FVec Ideal Cert.ReferenceIdeal.S128 .f32) (x : FVec Ideal Cert.KernelIdeal.S10000x128 .bf16)
    (e : Cert.KernelIdeal.S10000x128.Idx → Cert.ReferenceIdeal.S50000x128.Idx) (o : Nat) (he : RowEmb e o)
    (hx : ∀ j, x j = X (e j)) (y : Cert.KernelIdeal.S10000x128.Idx) :
    blockPreGate x W b y = preGate X W b (e y) :=
  linear_layer_block (φ := .bf16) (ψ := .bf16) Cert.KernelIdeal.Gen.bitsLt_bf16_f32
    Cert.KernelIdeal.dot_S10000x128_S128x128_S10000x128_1_0_0_1_n_n rfl
    Cert.ReferenceIdeal.dot_S50000x128_S128x128_S50000x128_1_0_0_1_n_n rfl none none X W b x e e o he he hx
    Cert.KernelIdeal.Gen.shapeCasts_S128_S1x128 Cert.ReferenceIdeal.Gen.bcast_S128_S1x128_1
    Cert.KernelIdeal.Gen.broadcasts_S1x128_S10000x128 Cert.ReferenceIdeal.Gen.bcast_S1x128_S50000x128_0_1 y

/-- THE NODE KERNEL'S BLOCK: the stored value at a block entry is the reference's node stage where the entry sits. -/
theorem node_block (h : FVec Ideal Cert.ReferenceIdeal.S50000x128 .f32)
    (W0 : FVec Ideal Cert.ReferenceIdeal.S128x128 .f32) (b0 : FVec Ideal Cert.ReferenceIdeal.S128 .f32)
    (W1 : FVec Ideal Cert.ReferenceIdeal.S128x128 .f32) (b1 : FVec Ideal Cert.ReferenceIdeal.S128 .f32)
    (W2 : FVec Ideal Cert.ReferenceIdeal.S128x128 .f32) (b2 : FVec Ideal Cert.ReferenceIdeal.S128 .f32)
    (Wg : FVec Ideal Cert.ReferenceIdeal.S128x128 .f32) (bg : FVec Ideal Cert.ReferenceIdeal.S128 .f32)
    (x0 : FVec Ideal Cert.KernelIdeal.S10000x128 .f32)
    (e : Cert.KernelIdeal.S10000x128.Idx → Cert.ReferenceIdeal.S50000x128.Idx) (o : Nat) (he : RowEmb e o)
    (hx0 : ∀ j, x0 j = h (e j)) (y : Cert.KernelIdeal.S10000x128.Idx) :
    Cert.KernelIdeal.Gen.k0_pay1 (F := Ideal) (Cert.KernelIdeal.Gen.k0_pay2 x0 W0 b0 W1 b1 W2 b2)
        (Cert.KernelIdeal.Gen.k0_pay3 x0 W0 b0 W1 b1 W2 b2 Wg) (Cert.KernelIdeal.Gen.k0_pay4 bg) y
      = nodeHost h W0 b0 W1 b1 W2 b2 Wg bg (e y) := by
  have hψ := Cert.KernelIdeal.Gen.bitsLt_bf16_f32
  have L1 : ∀ j, blockLayer (truncf .bf16 x0 hψ) W0 b0 j = layer50k h W0 b0 (e j) := fun j =>
    blockLayer_eq h W0 b0 _ e o he (fun j => (truncf_apply x0 hψ j).trans (hx0 j)) j
  have L2 : ∀ j, blockLayer (truncf .bf16 (blockLayer (truncf .bf16 x0 hψ) W0 b0) hψ) W1 b1 j
      = layer50k (layer50k h W0 b0) W1 b1 (e j) := fun j =>
    blockLayer_eq _ W1 b1 _ e o he (fun j => (truncf_apply _ hψ j).trans (L1 j)) j
  have L3 : ∀ j, blockLayer (truncf .bf16 (blockLayer (truncf .bf16 (blockLayer (truncf .bf16 x0 hψ) W0 b0) hψ) W1 b1) hψ) W2 b2 j
      = feat h W0 b0 W1 b1 W2 b2 (e j) := fun j =>
    blockLayer_eq _ W2 b2 _ e o he (fun j => (truncf_apply _ hψ j).trans (L2 j)) j
  have G : ∀ j, blockPreGate (truncf .bf16 (blockLayer (truncf .bf16 (blockLayer (truncf .bf16 (blockLayer (truncf .bf16 x0 hψ) W0 b0) hψ) W1 b1) hψ) W2 b2) hψ) Wg bg j
      = preGate (feat h W0 b0 W1 b1 W2 b2) Wg bg (e j) := fun j =>
    blockPreGate_eq _ Wg bg _ e o he (fun j => (truncf_apply _ hψ j).trans (L3 j)) j
  show Ideal.logistic (blockPreGate (truncf .bf16 (blockLayer (truncf .bf16 (blockLayer (truncf .bf16 (blockLayer (truncf .bf16 x0 hψ) W0 b0) hψ) W1 b1) hψ) W2 b2) hψ) Wg bg y)
      * blockLayer (truncf .bf16 (blockLayer (truncf .bf16 (blockLayer (truncf .bf16 x0 hψ) W0 b0) hψ) W1 b1) hψ) W2 b2 y = _
  rw [G y, L3 y]
  unfold nodeHost gated
  exact (hostGate_apply Cert.ReferenceIdeal.Gen.bcast_S_S50000x128 _ _ (e y)).symm

end Cert.NodeStage

end
-- ==== Proof.NodeArray.lean ====
/-
  The node kernel's output array after its pipeline.

  The node kernel's grid has 5 points; point t reads rows 10000·t … 10000·t + 9999 of the feature array and the whole
  weight matrices and bias vectors, and writes back rows 10000·t … 10000·t + 9999 of its output.  What point t writes
  back is the block of the reference's node stage of the arrays the region finds, and the 5 blocks cover all 50000
  rows: so the output array ends holding the node stage of those arrays.
-/
import proofs.«132359_j80633716015170_2_alg».proof.Proof.Gen.KernelIdeal.Frame
import proofs.«132359_j80633716015170_2_alg».proof.Proof.NodeStage

set_option maxRecDepth 16384

noncomputable section

namespace Cert.KernelIdeal.NodeArray

open Idealize.ShloMosaic Idealize.ShloMosaic.TcCoe Idealize.SL.Sem
open Idealize.ShloMosaic.Pipeline (Dat Cfg Window)
open Cert.KernelIdeal Cert.KernelIdeal.Gen Cert.Lib.TwoLayerRows Cert.RefStages

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The node stage of the arrays the region finds. -/
abbrev nodeOf (c : Dev nD) : FVec Ideal Cert.ReferenceIdeal.S50000x128 .f32 :=
  nodeHost (V c main_arg0) (V c main_arg3) (V c main_arg4) (V c main_arg5) (V c main_arg6) (V c main_arg7)
    (V c main_arg8) (V c main_arg9) (V c main_arg10)

/-- The printed index maps, decided over the grid: the feature window and the output window sit at block row t,
    every weight and bias window at the origin. -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_2.index t (0 : Fin 1) = 0 ∧ win0_4.index t (0 : Fin 1) = 0
    ∧ win0_6.index t (0 : Fin 1) = 0 ∧ win0_8.index t (0 : Fin 1) = 0 :=
  (by decide +kernel : ∀ t : Fin grid0.N, _)

/-- A weight window's block is the whole weight matrix. -/
theorem wblock1 (c : Dev nD) (t : Fin cfg0.N) : (iblk0 V c 1 t : Vec Ideal S128x128 .f32) = V c main_arg3 := by
  obtain ⟨-, -, -, -, e0, e1, -⟩ := idx_facts t
  funext j
  show V c main_arg3 (((cfg0.win 1).blk t).view.emb j) = V c main_arg3 j
  refine congrArg _ (funext fun a => Fin.ext ?_)
  match a with
  | ⟨0, _⟩ => show win0_1.index t (0 : Fin 2) * 128 + 1 * (j 0).val = (j 0).val; omega
  | ⟨1, _⟩ => show win0_1.index t (1 : Fin 2) * 128 + 1 * (j 1).val = (j 1).val; omega
theorem wblock3 (c : Dev nD) (t : Fin cfg0.N) : (iblk0 V c 3 t : Vec Ideal S128x128 .f32) = V c main_arg5 := by
  obtain ⟨-, -, -, -, -, -, e0, e1, -⟩ := idx_facts t
  funext j
  show V c main_arg5 (((cfg0.win 3).blk t).view.emb j) = V c main_arg5 j
  refine congrArg _ (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega
theorem wblock5 (c : Dev nD) (t : Fin cfg0.N) : (iblk0 V c 5 t : Vec Ideal S128x128 .f32) = V c main_arg7 := by
  obtain ⟨-, -, -, -, -, -, -, -, e0, e1, -⟩ := idx_facts t
  funext j
  show V c main_arg7 (((cfg0.win 5).blk t).view.emb j) = V c main_arg7 j
  refine congrArg _ (funext fun a => Fin.ext ?_)
  match a with
  | ⟨0, _⟩ => show win0_5.index t (0 : Fin 2) * 128 + 1 * (j 0).val = (j 0).val; omega
  | ⟨1, _⟩ => show win0_5.index t (1 : Fin 2) * 128 + 1 * (j 1).val = (j 1).val; omega
theorem wblock7 (c : Dev nD) (t : Fin cfg0.N) : (iblk0 V c 7 t : Vec Ideal S128x128 .f32) = V c main_arg9 := by
  obtain ⟨-, -, -, -, -, -, -, -, -, -, e0, e1, -⟩ := idx_facts t
  funext j
  show V c main_arg9 (((cfg0.win 7).blk t).view.emb j) = V c main_arg9 j
  refine congrArg _ (funext fun a => Fin.ext ?_)
  match a with
  | ⟨0, _⟩ => show win0_7.index t (0 : Fin 2) * 128 + 1 * (j 0).val = (j 0).val; omega
  | ⟨1, _⟩ => show win0_7.index t (1 : Fin 2) * 128 + 1 * (j 1).val = (j 1).val; omega

/-- A bias window's block is the whole bias vector. -/
theorem bblock2 (c : Dev nD) (t : Fin cfg0.N) : (iblk0 V c 2 t : Vec Ideal S128 .f32) = V c main_arg4 := by
  obtain ⟨-, -, -, -, -, -, -, -, -, -, -, -, e0, -⟩ := idx_facts t
  funext j
  show V c main_arg4 (((cfg0.win 2).blk t).view.emb j) = V c main_arg4 j
  refine congrArg _ (funext fun a => Fin.ext ?_)
  match a with
  | ⟨0, _⟩ => show win0_2.index t (0 : Fin 1) * 128 + 1 * (j 0).val = (j 0).val; omega
theorem bblock4 (c : Dev nD) (t : Fin cfg0.N) : (iblk0 V c 4 t : Vec Ideal S128 .f32) = V c main_arg6 := by
  obtain ⟨-, -, -, -, -, -, -, -, -, -, -, -, -, e0, -⟩ := idx_facts t
  funext j
  show V c main_arg6 (((cfg0.win 4).blk t).view.emb j) = V c main_arg6 j
  refine congrArg _ (funext fun a => Fin.ext ?_)
  match a with
  | ⟨0, _⟩ => show win0_4.index t (0 : Fin 1) * 128 + 1 * (j 0).val = (j 0).val; omega
theorem bblock6 (c : Dev nD) (t : Fin cfg0.N) : (iblk0 V c 6 t : Vec Ideal S128 .f32) = V c main_arg8 := by
  obtain ⟨-, -, -, -, -, -, -, -, -, -, -, -, -, -, e0, -⟩ := idx_facts t
  funext j
  show V c main_arg8 (((cfg0.win 6).blk t).view.emb j) = V c main_arg8 j
  refine congrArg _ (funext fun a => Fin.ext ?_)
  match a with
  | ⟨0, _⟩ => show win0_6.index t (0 : Fin 1) * 128 + 1 * (j 0).val = (j 0).val; omega
theorem bblock8 (c : Dev nD) (t : Fin cfg0.N) : (iblk0 V c 8 t : Vec Ideal S128 .f32) = V c main_arg10 := by
  obtain ⟨-, -, -, -, -, -, -, -, -, -, -, -, -, -, -, e0⟩ := idx_facts t
  funext j
  show V c main_arg10 (((cfg0.win 8).blk t).view.emb j) = V c main_arg10 j
  refine congrArg _ (funext fun a => Fin.ext ?_)
  match a with
  | ⟨0, _⟩ => show win0_8.index t (0 : Fin 1) * 128 + 1 * (j 0).val = (j 0).val; omega

/-- Where an entry of the output block of point t sits in the output array: row 10000·t + r, the same column. -/
theorem outEmb (t : Fin cfg0.N) :
    RowEmb (fun y : S10000x128.Idx => (((cfg0.win 9).blk t).view.emb y : Cert.ReferenceIdeal.S50000x128.Idx)) (t.val * 10000) := by
  obtain ⟨-, -, e0, e1, -⟩ := idx_facts t
  constructor
  · intro j; show win0_9.index t (0 : Fin 2) * 10000 + 1 * (j 0).val = t.val * 10000 + (j 0).val; rw [e0]; omega
  · intro j; show win0_9.index t (1 : Fin 2) * 128 + 1 * (j 1).val = (j 1).val; rw [e1]; omega

/-- The feature block of point t, entry by entry, is the feature array where the output block's entry sits. -/
theorem featBlock (c : Dev nD) (t : Fin cfg0.N) (y : S10000x128.Idx) :
    (iblk0 V c 0 t : Vec Ideal S10000x128 .f32) y = V c main_arg0 (((cfg0.win 9).blk t).view.emb y) := by
  obtain ⟨a0, a1, e0, e1, -⟩ := idx_facts t
  show V c main_arg0 (((cfg0.win 0).blk t).view.emb y) = V c main_arg0 (((cfg0.win 9).blk t).view.emb y)
  refine congrArg _ (funext fun a => Fin.ext ?_)
  match a with
  | ⟨0, _⟩ => show win0_0.index t (0 : Fin 2) * 10000 + 1 * (y 0).val = win0_9.index t (0 : Fin 2) * 10000 + 1 * (y 0).val; rw [a0, e0]
  | ⟨1, _⟩ => show win0_0.index t (1 : Fin 2) * 128 + 1 * (y 1).val = win0_9.index t (1 : Fin 2) * 128 + 1 * (y 1).val; rw [a1, e1]

/-- WHAT POINT t WRITES BACK is block t of the node stage of the arrays the region finds. -/
theorem flushed_eq (c : Dev nD) (t : Fin cfg0.N) :
    (dat0 V c).flushed 9 t = ((cfg0.win 9).blk t).view.read (Elt Ideal) (nodeOf V c) := by
  show (cfg0.win 9).cut (grid0.coords t) ((dat0 V c).after 9 t) = _
  rw [after0_9]
  unfold out0_9
  rw [View.canon_unit_zero hz2]
  simp only [View.ld_unit_zero (S := S10000x128) hz2, View.ld_unit_zero (S := S128x128) hz2, View.ld_unit_zero (S := S128) hz1]
  funext j
  show k0_pay1 (F := Ideal) (k0_pay2 (iblk0 V c 0 t) (iblk0 V c 1 t) (iblk0 V c 2 t) (iblk0 V c 3 t) (iblk0 V c 4 t) (iblk0 V c 5 t) (iblk0 V c 6 t))
      (k0_pay3 (iblk0 V c 0 t) (iblk0 V c 1 t) (iblk0 V c 2 t) (iblk0 V c 3 t) (iblk0 V c 4 t) (iblk0 V c 5 t) (iblk0 V c 6 t) (iblk0 V c 7 t))
      (k0_pay4 (iblk0 V c 8 t)) j = nodeOf V c (((cfg0.win 9).blk t).view.emb j)
  rw [wblock1 V c t, bblock2 V c t, wblock3 V c t, bblock4 V c t, wblock5 V c t, bblock6 V c t, wblock7 V c t, bblock8 V c t]
  exact Cert.NodeStage.node_block (V c main_arg0) (V c main_arg3) (V c main_arg4) (V c main_arg5) (V c main_arg6)
    (V c main_arg7) (V c main_arg8) (V c main_arg9) (V c main_arg10) (iblk0 V c 0 t)
    (fun y => ((cfg0.win 9).blk t).view.emb y) (t.val * 10000) (outEmb t) (featBlock V c t) j

/-- An index of the output array is in point t's block iff each coordinate is in the block's range on its axis. -/
theorem mem_blk (t : Fin cfg0.N) (i : S50000x128.Idx) :
    i ∈ ((cfg0.win 9).blk t).view.set ↔ ∀ a : Fin 2, win0_9.index t a * S10000x128.size a ≤ (i a).val ∧ (i a).val < win0_9.index t a * S10000x128.size a + S10000x128.size a := by
  show i ∈ ((View.whole main_v0).slice (win0_9.rect t)).set ↔ _
  rw [View.set_slice_whole, Rect.mem_set_unit]
  exact Iff.rfl

/-- Every entry of the output array is in the block of the point its row falls in. -/
theorem cover (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  have hN : grid0.N = 5 := N_0
  have ht : (i 0).val / 10000 < cfg0.N := by show _ < grid0.N; rw [hN]; omega
  obtain ⟨-, -, e0, e1, -⟩ := idx_facts ⟨(i 0).val / 10000, ht⟩
  refine ⟨⟨(i 0).val / 10000, ht⟩, flush0_9 _, ?_⟩
  rw [mem_blk]
  intro a
  match a with
  | ⟨0, _⟩ =>
    show win0_9.index ⟨(i 0).val / 10000, ht⟩ (0 : Fin 2) * 10000 ≤ (i 0).val ∧ (i 0).val < win0_9.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_9.index ⟨(i 0).val / 10000, ht⟩ (1 : Fin 2) * 128 ≤ (i 1).val ∧ (i 1).val < win0_9.index ⟨(i 0).val / 10000, ht⟩ (1 : Fin 2) * 128 + 128
    rw [e1]; omega

/-- THE OUTPUT ARRAY after the pipeline is the node stage of the arrays the region finds. -/
theorem final (c : Dev nD) : (dat0 V c).arrAt 9 cfg0.N = nodeOf V c :=
  (dat0 V c).arrAt_eq_of_cover 9 (nodeOf V c) (fun t _ => flushed_eq V c t) cover

end Cert.KernelIdeal.NodeArray

end
-- ==== Proof.EdgeStage.lean ====
/-
  The readout kernel's block against the reference's edge stage, at the ideal values.

  For a block of 8000 consecutive edges the readout kernel computes  max(xs·R0[0:128] + xd·R0[128:256] + r0, 0),
  then a rectified dense layer to 64 columns and a dense layer to 2 columns, every product on operands narrowed to a
  shorter float format (the identity on the extended reals).  The reference joins the two gathered arrays side by
  side and contracts the 256 joined columns against the whole R0.  A sum over 256 positions is the sum over the
  first 128 plus the sum over the last 128 (addition of extended reals is commutative and associative), the joined
  array reads the first array on the first 128 columns and the second on the last 128, and the two cuts of R0 are its
  rows 0…127 and 128…255: so the block's entry (r, c) is the reference's edge stage at (o + r, c), o the block's
  first row.
-/
import proofs.«132359_j80633716015170_2_alg».proof.Proof.Gen.KernelIdeal.Skeleton
import proofs.«132359_j80633716015170_2_alg».proof.Proof.RefStages
import proofs.«132359_j80633716015170_2_alg».proof.Proof.LibDenseLayers

noncomputable section

namespace Cert.EdgeStage

open Idealize.ShloMosaic Idealize.ShloMosaic.ValueIdx Cert.Lib.PlainDot Cert.Bridge Cert.Lib.TwoLayerRows
open Cert.Lib.DenseLayers Cert.RefStages
open scoped BigOperators

/-- Entry (k, c) of the top half of a [256, 128] matrix. -/
abbrev topIdx (j : Cert.KernelIdeal.S128x128.Idx) : Cert.ReferenceIdeal.S256x128.Idx := fun a => match a with
  | ⟨0, _⟩ => ⟨(j 0).val, by have h : (j 0).val < 128 := (j 0).isLt; show (j 0).val < 256; omega⟩
  | ⟨1, _⟩ => ⟨(j 1).val, (j 1).isLt⟩
/-- Entry (k, c) of the bottom half of a [256, 128] matrix: row 128 + k. -/
abbrev botIdx (j : Cert.KernelIdeal.S128x128.Idx) : Cert.ReferenceIdeal.S256x128.Idx := fun a => match a with
  | ⟨0, _⟩ => ⟨128 + (j 0).val, by have h : (j 0).val < 128 := (j 0).isLt; show 128 + (j 0).val < 256; omega⟩
  | ⟨1, _⟩ => ⟨(j 1).val, (j 1).isLt⟩

/-- The joined array on its first 128 columns is the first array. -/
theorem joined_left (A B : FVec Ideal Cert.ReferenceIdeal.S800000x128 .f32) (i : Cert.ReferenceIdeal.S800000x128.Idx)
    (k : Fin 128) :
    joined A B (rowIdx (K := 128 + 128) i (Fin.castAdd 128 k)) = A (rowIdx i k) := by
  unfold joined
  exact concatenate_pair_apply_left (1 : Fin Cert.ReferenceIdeal.S800000x256.rank) A B _ _ rfl (rowIdx i k) (fun b => by
    match b with
    | ⟨0, _⟩ => rfl
    | ⟨1, _⟩ => rfl)

/-- The joined array on its last 128 columns is the second array. -/
theorem joined_right (A B : FVec Ideal Cert.ReferenceIdeal.S800000x128 .f32) (i : Cert.ReferenceIdeal.S800000x128.Idx)
    (k : Fin 128) :
    joined A B (rowIdx (K := 128 + 128) i (Fin.natAdd 128 k)) = B (rowIdx i k) := by
  unfold joined
  exact concatenate_pair_apply_right (1 : Fin Cert.ReferenceIdeal.S800000x256.rank) A B _ _ rfl rfl (rowIdx i k)
    (fun b hb => by
      match b with
      | ⟨0, _⟩ => rfl
      | ⟨1, _⟩ => exact absurd rfl hb)
    (by show k.val + 128 = 128 + k.val; omega)

/-- The first readout layer as the kernel computes it on a block of edges. -/
def blockEdge1 (xs xd : FVec Ideal Cert.KernelIdeal.S8000x128 .bf16) (Rs Rd : FVec Ideal Cert.KernelIdeal.S128x128 .f32)
    (r0 : FVec Ideal Cert.KernelIdeal.S128 .f32) : FVec Ideal Cert.KernelIdeal.S8000x128 .f32 :=
  maximumf (addf (addf
        (matmul Cert.KernelIdeal.dot_S8000x128_S128x128_S8000x128_1_0_0_1_n_n none
          (shapeCast Cert.KernelIdeal.S8000x128 xs Cert.KernelIdeal.Gen.shapeCasts_S8000x128_S8000x128)
          (truncf .bf16 (shapeCast Cert.KernelIdeal.S128x128 Rs Cert.KernelIdeal.Gen.shapeCasts_S128x128_S128x128) Cert.KernelIdeal.Gen.bitsLt_bf16_f32)
          (constant Cert.KernelIdeal.S8000x128 .f32 0x00000000#32))
        (matmul Cert.KernelIdeal.dot_S8000x128_S128x128_S8000x128_1_0_0_1_n_n none
          (shapeCast Cert.KernelIdeal.S8000x128 xd Cert.KernelIdeal.Gen.shapeCasts_S8000x128_S8000x128)
          (truncf .bf16 (shapeCast Cert.KernelIdeal.S128x128 Rd Cert.KernelIdeal.Gen.shapeCasts_S128x128_S128x128) Cert.KernelIdeal.Gen.bitsLt_bf16_f32)
          (constant Cert.KernelIdeal.S8000x128 .f32 0x00000000#32)))
      (broadcastTo Cert.KernelIdeal.S8000x128 (shapeCast Cert.KernelIdeal.S1x128 r0 Cert.KernelIdeal.Gen.shapeCasts_S128_S1x128)
        Cert.KernelIdeal.Gen.broadcasts_S1x128_S8000x128))
    (broadcast Cert.KernelIdeal.S8000x128 (Scalar.ofBits (F := Ideal) .f32 0x00000000#32))

/-- The second readout layer on a block of edges. -/
def blockEdge2 (x : FVec Ideal Cert.KernelIdeal.S8000x128 .bf16) (R1 : FVec Ideal Cert.KernelIdeal.S128x64 .f32)
    (r1 : FVec Ideal Cert.KernelIdeal.S64 .f32) : FVec Ideal Cert.KernelIdeal.S8000x64 .f32 :=
  maximumf (addf (matmul Cert.KernelIdeal.dot_S8000x128_S128x64_S8000x64_1_0_0_1_n_n none x
        (truncf .bf16 R1 Cert.KernelIdeal.Gen.bitsLt_bf16_f32) (constant Cert.KernelIdeal.S8000x64 .f32 0x00000000#32))
      (broadcastTo Cert.KernelIdeal.S8000x64 (shapeCast Cert.KernelIdeal.S1x64 r1 Cert.KernelIdeal.Gen.shapeCasts_S64_S1x64)
        Cert.KernelIdeal.Gen.broadcasts_S1x64_S8000x64))
    (broadcast Cert.KernelIdeal.S8000x64 (Scalar.ofBits (F := Ideal) .f32 0x00000000#32))

/-- The last readout layer on a block of edges. -/
def blockEdge3 (x : FVec Ideal Cert.KernelIdeal.S8000x64 .bf16) (R2 : FVec Ideal Cert.KernelIdeal.S64x2 .f32)
    (r2 : FVec Ideal Cert.KernelIdeal.S2 .f32) : FVec Ideal Cert.KernelIdeal.S8000x2 .f32 :=
  addf (matmul Cert.KernelIdeal.dot_S8000x64_S64x2_S8000x2_1_0_0_1_n_n none x
        (truncf .bf16 R2 Cert.KernelIdeal.Gen.bitsLt_bf16_f32) (constant Cert.KernelIdeal.S8000x2 .f32 0x00000000#32))
      (broadcastTo Cert.KernelIdeal.S8000x2 (shapeCast Cert.KernelIdeal.S1x2 r2 Cert.KernelIdeal.Gen.shapeCasts_S2_S1x2)
        Cert.KernelIdeal.Gen.broadcasts_S1x2_S8000x2)

/-- THE FIRST READOUT LAYER of a block: the two half contractions are the contraction of the joined array. -/
theorem blockEdge1_eq (A B : FVec Ideal Cert.ReferenceIdeal.S800000x128 .f32) (R0 : FVec Ideal Cert.ReferenceIdeal.S256x128 .f32)
    (r0 : FVec Ideal Cert.ReferenceIdeal.S128 .f32)
    (xs xd : FVec Ideal Cert.KernelIdeal.S8000x128 .bf16) (Rs Rd : FVec Ideal Cert.KernelIdeal.S128x128 .f32)
    (e : Cert.KernelIdeal.S8000x128.Idx → Cert.ReferenceIdeal.S800000x128.Idx) (o : Nat) (he : RowEmb e o)
    (hxs : ∀ j, xs j = A (e j)) (hxd : ∀ j, xd j = B (e j))
    (hRs : ∀ j, Rs j = R0 (topIdx j)) (hRd : ∀ j, Rd j = R0 (botIdx j))
    (y : Cert.KernelIdeal.S8000x128.Idx) :
    blockEdge1 xs xd Rs Rd r0 y = edge1 (joined A B) R0 r0 (e y) := by
  unfold blockEdge1 edge1
  rw [maximumf_apply, maximumf_apply, addf_apply, addf_apply, addf_apply, stretchRow_apply, hostStretchRow_apply,
    hostSplat_apply, reshapeRow_eq r0 Cert.KernelIdeal.Gen.shapeCasts_S128_S1x128 Cert.ReferenceIdeal.Gen.bcast_S128_S1x128_1,
    he.rowZero_eq y, shapeCast_self, shapeCast_self, shapeCast_self, shapeCast_self]
  simp only [Host.dotGeneral, matmul]
  rw [Cert.Lib.PlainDot.matmul_zero_apply Cert.KernelIdeal.dot_S8000x128_S128x128_S8000x128_1_0_0_1_n_n rfl,
    Cert.Lib.PlainDot.matmul_zero_apply Cert.KernelIdeal.dot_S8000x128_S128x128_S8000x128_1_0_0_1_n_n rfl,
    Cert.Lib.PlainDot.dotGeneral_apply Cert.ReferenceIdeal.dot_S800000x256_S256x128_S800000x128_1_0_0_1_n_n rfl]
  have hsum := mm_halves_block (K := 128) (fun j => xs j) (fun j => xd j)
    (fun j => truncf .bf16 Rs Cert.KernelIdeal.Gen.bitsLt_bf16_f32 j) (fun j => truncf .bf16 Rd Cert.KernelIdeal.Gen.bitsLt_bf16_f32 j)
    (joined A B) R0 y (e y)
    (fun k => by rw [hxs, he.rowIdx_eq he y k, joined_left])
    (fun k => by rw [hxd, he.rowIdx_eq he y k, joined_right])
    (fun k => by
      rw [truncf_apply, hRs]
      refine congrArg R0 (funext fun a => Fin.ext ?_)
      match a with
      | ⟨0, _⟩ => rfl
      | ⟨1, _⟩ => exact (he.col y).symm)
    (fun k => by
      rw [truncf_apply, hRd]
      refine congrArg R0 (funext fun a => Fin.ext ?_)
      match a with
      | ⟨0, _⟩ => rfl
      | ⟨1, _⟩ => exact (he.col y).symm)
  rw [← hsum]
  rfl

/-- THE READOUT KERNEL'S BLOCK: the stored value at a block entry is the reference's edge stage where it sits. -/
theorem edge_block (A B : FVec Ideal Cert.ReferenceIdeal.S800000x128 .f32) (R0 : FVec Ideal Cert.ReferenceIdeal.S256x128 .f32)
    (r0 : FVec Ideal Cert.ReferenceIdeal.S128 .f32) (R1 : FVec Ideal Cert.ReferenceIdeal.S128x64 .f32)
    (r1 : FVec Ideal Cert.ReferenceIdeal.S64 .f32) (R2 : FVec Ideal Cert.ReferenceIdeal.S64x2 .f32)
    (r2 : FVec Ideal Cert.ReferenceIdeal.S2 .f32)
    (xs xd : FVec Ideal Cert.KernelIdeal.S8000x128 .bf16) (Rs Rd : FVec Ideal Cert.KernelIdeal.S128x128 .f32)
    (e128 : Cert.KernelIdeal.S8000x128.Idx → Cert.ReferenceIdeal.S800000x128.Idx)
    (e64 : Cert.KernelIdeal.S8000x64.Idx → Cert.ReferenceIdeal.S800000x64.Idx)
    (e2 : Cert.KernelIdeal.S8000x2.Idx → Cert.ReferenceIdeal.S800000x2.Idx) (o : Nat)
    (h128 : RowEmb e128 o) (h64 : RowEmb e64 o) (h2 : RowEmb e2 o)
    (hxs : ∀ j, xs j = A (e128 j)) (hxd : ∀ j, xd j = B (e128 j))
    (hRs : ∀ j, Rs j = R0 (topIdx j)) (hRd : ∀ j, Rd j = R0 (botIdx j))
    (y : Cert.KernelIdeal.S8000x2.Idx) :
    Cert.KernelIdeal.Gen.k1_pay1 (F := Ideal) xs xd Rs Rd r0 R1 r1 R2 r2 y
      = edgeHost A B R0 r0 R1 r1 R2 r2 (e2 y) := by
  have hψ := Cert.KernelIdeal.Gen.bitsLt_bf16_f32
  have E1 : ∀ j, blockEdge1 xs xd Rs Rd r0 j = edge1 (joined A B) R0 r0 (e128 j) := fun j =>
    blockEdge1_eq A B R0 r0 xs xd Rs Rd e128 o h128 hxs hxd hRs hRd j
  have E2 : ∀ j, blockEdge2 (truncf .bf16 (blockEdge1 xs xd Rs Rd r0) hψ) R1 r1 j
      = edge2 (edge1 (joined A B) R0 r0) R1 r1 (e64 j) := fun j =>
    relu_layer_block (φ := .bf16) (ψ := .bf16) hψ
      Cert.KernelIdeal.dot_S8000x128_S128x64_S8000x64_1_0_0_1_n_n rfl
      Cert.ReferenceIdeal.dot_S800000x128_S128x64_S800000x64_1_0_0_1_n_n rfl none none _ R1 r1 _ e128 e64 o h128 h64
      (fun j => (truncf_apply _ hψ j).trans (E1 j))
      Cert.KernelIdeal.Gen.shapeCasts_S64_S1x64 Cert.ReferenceIdeal.Gen.bcast_S64_S1x64_1
      Cert.KernelIdeal.Gen.broadcasts_S1x64_S8000x64 Cert.ReferenceIdeal.Gen.bcast_S1x64_S800000x64_0_1
      Cert.ReferenceIdeal.Gen.bcast_S_S800000x64 0x00000000#32 j
  show blockEdge3 (truncf .bf16 (blockEdge2 (truncf .bf16 (blockEdge1 xs xd Rs Rd r0) hψ) R1 r1) hψ) R2 r2 y = _
  exact linear_layer_block (φ := .bf16) (ψ := .bf16) hψ
      Cert.KernelIdeal.dot_S8000x64_S64x2_S8000x2_1_0_0_1_n_n rfl
      Cert.ReferenceIdeal.dot_S800000x64_S64x2_S800000x2_1_0_0_1_n_n rfl none none _ R2 r2 _ e64 e2 o h64 h2
      (fun j => (truncf_apply _ hψ j).trans (E2 j))
      Cert.KernelIdeal.Gen.shapeCasts_S2_S1x2 Cert.ReferenceIdeal.Gen.bcast_S2_S1x2_1
      Cert.KernelIdeal.Gen.broadcasts_S1x2_S8000x2 Cert.ReferenceIdeal.Gen.bcast_S1x2_S800000x2_0_1 y

end Cert.EdgeStage

end
-- ==== Proof.EdgeArray.lean ====
/-
  The readout kernel's output array after its pipeline.

  The readout kernel's grid has 100 points; point t reads rows 8000·t … 8000·t + 7999 of the two gathered arrays and
  the whole weight matrices and bias vectors, and writes back rows 8000·t … 8000·t + 7999 of its output.  Its third
  and fourth windows hold the top and the bottom half of the first readout matrix.  What point t writes back is the
  block of the reference's edge stage of the arrays the region finds, and the 100 blocks cover all 800000 rows: so
  the output array ends holding the edge stage of those arrays.
-/
import proofs.«132359_j80633716015170_2_alg».proof.Proof.Gen.KernelIdeal.Frame
import proofs.«132359_j80633716015170_2_alg».proof.Proof.EdgeStage

set_option maxRecDepth 16384

noncomputable section

namespace Cert.KernelIdeal.EdgeArray

open Idealize.ShloMosaic Idealize.ShloMosaic.TcCoe Idealize.SL.Sem
open Idealize.ShloMosaic.Pipeline (Dat Cfg Window)
open Cert.KernelIdeal Cert.KernelIdeal.Gen Cert.Lib.TwoLayerRows Cert.Lib.DenseLayers Cert.RefStages Cert.EdgeStage

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The edge stage of the arrays the region finds, R0 the whole first readout matrix. -/
abbrev edgeOf (c : Dev nD) (R0 : FVec Ideal Cert.ReferenceIdeal.S256x128 .f32) : FVec Ideal Cert.ReferenceIdeal.S800000x2 .f32 :=
  edgeHost (V c main_v7) (V c main_v14) R0 (V c main_arg12) (V c main_arg13) (V c main_arg14) (V c main_arg15) (V c main_arg16)

/-- The printed index maps, decided over the grid: the two gathered windows and the output window sit at block row t,
    every weight and bias window at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_9.index t (0 : Fin 2) = t.val ∧ win1_9.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_5.index t (0 : Fin 2) = 0 ∧ win1_5.index t (1 : Fin 2) = 0
    ∧ win1_7.index t (0 : Fin 2) = 0 ∧ win1_7.index t (1 : Fin 2) = 0
    ∧ win1_4.index t (0 : Fin 1) = 0 ∧ win1_6.index t (0 : Fin 1) = 0 ∧ win1_8.index t (0 : Fin 1) = 0 :=
  (by decide +kernel : ∀ t : Fin grid1.N, _)

/-- A weight window's block is the whole array the window is over. -/
theorem wblock2 (c : Dev nD) (t : Fin cfg1.N) : (iblk1 V c 2 t : Vec Ideal S128x128 .f32) = V c main_v15 := by
  obtain ⟨-, -, -, -, -, -, e0, e1, -⟩ := idx_facts t
  funext j
  show V c main_v15 (((cfg1.win 2).blk t).view.emb j) = V c main_v15 j
  refine congrArg _ (funext fun a => Fin.ext ?_)
  match a with
  | ⟨0, _⟩ => show win1_2.index t (0 : Fin 2) * 128 + 1 * (j 0).val = (j 0).val; omega
  | ⟨1, _⟩ => show win1_2.index t (1 : Fin 2) * 128 + 1 * (j 1).val = (j 1).val; omega
theorem wblock3 (c : Dev nD) (t : Fin cfg1.N) : (iblk1 V c 3 t : Vec Ideal S128x128 .f32) = V c main_v16 := by
  obtain ⟨-, -, -, -, -, -, -, -, e0, e1, -⟩ := idx_facts t
  funext j
  show V c main_v16 (((cfg1.win 3).blk t).view.emb j) = V c main_v16 j
  refine congrArg _ (funext fun a => Fin.ext ?_)
  match a with
  | ⟨0, _⟩ => show win1_3.index t (0 : Fin 2) * 128 + 1 * (j 0).val = (j 0).val; omega
  | ⟨1, _⟩ => show win1_3.index t (1 : Fin 2) * 128 + 1 * (j 1).val = (j 1).val; omega
theorem wblock5 (c : Dev nD) (t : Fin cfg1.N) : (iblk1 V c 5 t : Vec Ideal S128x64 .f32) = V c main_arg13 := by
  obtain ⟨-, -, -, -, -, -, -, -, -, -, e0, e1, -⟩ := idx_facts t
  funext j
  show V c main_arg13 (((cfg1.win 5).blk t).view.emb j) = V c main_arg13 j
  refine congrArg _ (funext fun a => Fin.ext ?_)
  match a with
  | ⟨0, _⟩ => show win1_5.index t (0 : Fin 2) * 128 + 1 * (j 0).val = (j 0).val; omega
  | ⟨1, _⟩ => show win1_5.index t (1 : Fin 2) * 64 + 1 * (j 1).val = (j 1).val; omega
theorem wblock7 (c : Dev nD) (t : Fin cfg1.N) : (iblk1 V c 7 t : Vec Ideal S64x2 .f32) = V c main_arg15 := by
  obtain ⟨-, -, -, -, -, -, -, -, -, -, -, -, e0, e1, -⟩ := idx_facts t
  funext j
  show V c main_arg15 (((cfg1.win 7).blk t).view.emb j) = V c main_arg15 j
  refine congrArg _ (funext fun a => Fin.ext ?_)
  match a with
  | ⟨0, _⟩ => show win1_7.index t (0 : Fin 2) * 64 + 1 * (j 0).val = (j 0).val; omega
  | ⟨1, _⟩ => show win1_7.index t (1 : Fin 2) * 2 + 1 * (j 1).val = (j 1).val; omega

/-- A bias window's block is the whole bias vector. -/
theorem bblock4 (c : Dev nD) (t : Fin cfg1.N) : (iblk1 V c 4 t : Vec Ideal S128 .f32) = V c main_arg12 := by
  obtain ⟨-, -, -, -, -, -, -, -, -, -, -, -, -, -, e0, -⟩ := idx_facts t
  funext j
  show V c main_arg12 (((cfg1.win 4).blk t).view.emb j) = V c main_arg12 j
  refine congrArg _ (funext fun a => Fin.ext ?_)
  match a with
  | ⟨0, _⟩ => show win1_4.index t (0 : Fin 1) * 128 + 1 * (j 0).val = (j 0).val; omega
theorem bblock6 (c : Dev nD) (t : Fin cfg1.N) : (iblk1 V c 6 t : Vec Ideal S64 .f32) = V c main_arg14 := by
  obtain ⟨-, -, -, -, -, -, -, -, -, -, -, -, -, -, -, e0, -⟩ := idx_facts t
  funext j
  show V c main_arg14 (((cfg1.win 6).blk t).view.emb j) = V c main_arg14 j
  refine congrArg _ (funext fun a => Fin.ext ?_)
  match a with
  | ⟨0, _⟩ => show win1_6.index t (0 : Fin 1) * 64 + 1 * (j 0).val = (j 0).val; omega
theorem bblock8 (c : Dev nD) (t : Fin cfg1.N) : (iblk1 V c 8 t : Vec Ideal S2 .f32) = V c main_arg16 := by
  obtain ⟨-, -, -, -, -, -, -, -, -, -, -, -, -, -, -, -, e0⟩ := idx_facts t
  funext j
  show V c main_arg16 (((cfg1.win 8).blk t).view.emb j) = V c main_arg16 j
  refine congrArg _ (funext fun a => Fin.ext ?_)
  match a with
  | ⟨0, _⟩ => show win1_8.index t (0 : Fin 1) * 2 + 1 * (j 0).val = (j 0).val; omega

/-- Where an entry of the output block of point t sits in the output array: row 8000·t + r, the same column. -/
theorem outEmb (t : Fin cfg1.N) :
    RowEmb (fun y : S8000x2.Idx => (((cfg1.win 9).blk t).view.emb y : Cert.ReferenceIdeal.S800000x2.Idx)) (t.val * 8000) := by
  obtain ⟨-, -, -, -, e0, e1, -⟩ := idx_facts t
  constructor
  · intro j; show win1_9.index t (0 : Fin 2) * 8000 + 1 * (j 0).val = t.val * 8000 + (j 0).val; rw [e0]; omega
  · intro j; show win1_9.index t (1 : Fin 2) * 2 + 1 * (j 1).val = (j 1).val; rw [e1]; omega

/-- Point t's rows stay inside the 800000 rows. -/
theorem rows_le (t : Fin cfg1.N) : t.val * 8000 + 8000 ≤ 800000 := by
  have hN : grid1.N = 100 := N_1
  have ht : t.val < grid1.N := t.isLt
  rw [hN] at ht; omega

/-- The first gathered block of point t, entry by entry, is the first gathered array at row 8000·t + r. -/
theorem srcBlock (c : Dev nD) (t : Fin cfg1.N) (y : S8000x128.Idx) :
    (iblk1 V c 0 t : Vec Ideal S8000x128 .bf16) y = V c main_v7 (shiftRow (N := 800000) (t.val * 8000) (rows_le t) y) := by
  obtain ⟨a0, a1, -⟩ := idx_facts t
  show V c main_v7 (((cfg1.win 0).blk t).view.emb y) = V c main_v7 (shiftRow (N := 800000) (t.val * 8000) (rows_le t) y)
  refine congrArg _ (funext fun a => Fin.ext ?_)
  match a with
  | ⟨0, _⟩ => show win1_0.index t (0 : Fin 2) * 8000 + 1 * (y 0).val = t.val * 8000 + (y 0).val; rw [a0]; omega
  | ⟨1, _⟩ => show win1_0.index t (1 : Fin 2) * 128 + 1 * (y 1).val = (y 1).val; rw [a1]; omega

/-- The second gathered block of point t, likewise. -/
theorem dstBlock (c : Dev nD) (t : Fin cfg1.N) (y : S8000x128.Idx) :
    (iblk1 V c 1 t : Vec Ideal S8000x128 .bf16) y = V c main_v14 (shiftRow (N := 800000) (t.val * 8000) (rows_le t) y) := by
  obtain ⟨-, -, a0, a1, -⟩ := idx_facts t
  show V c main_v14 (((cfg1.win 1).blk t).view.emb y) = V c main_v14 (shiftRow (N := 800000) (t.val * 8000) (rows_le t) y)
  refine congrArg _ (funext fun a => Fin.ext ?_)
  match a with
  | ⟨0, _⟩ => show win1_1.index t (0 : Fin 2) * 8000 + 1 * (y 0).val = t.val * 8000 + (y 0).val; rw [a0]; omega
  | ⟨1, _⟩ => show win1_1.index t (1 : Fin 2) * 128 + 1 * (y 1).val = (y 1).val; rw [a1]; omega

/-- WHAT POINT t WRITES BACK is block t of the edge stage of the arrays the region finds, when the third and fourth
    windows' arrays are the top and bottom halves of R0. -/
theorem flushed_eq (c : Dev nD) (R0 : FVec Ideal Cert.ReferenceIdeal.S256x128 .f32)
    (hs : ∀ j : S128x128.Idx, (V c main_v15 : Vec Ideal S128x128 .f32) j = R0 (topIdx j))
    (hd : ∀ j : S128x128.Idx, (V c main_v16 : Vec Ideal S128x128 .f32) j = R0 (botIdx j)) (t : Fin cfg1.N) :
    (dat1 V c).flushed 9 t = ((cfg1.win 9).blk t).view.read (Elt Ideal) (edgeOf V c R0) := by
  show (cfg1.win 9).cut (grid1.coords t) ((dat1 V c).after 9 t) = _
  rw [after1_9]
  unfold out1_9
  rw [View.canon_unit_zero hz2]
  simp only [View.ld_unit_zero (S := S8000x128) hz2, View.ld_unit_zero (S := S128x128) hz2, View.ld_unit_zero (S := S128) hz1,
    View.ld_unit_zero (S := S128x64) hz2, View.ld_unit_zero (S := S64) hz1, View.ld_unit_zero (S := S64x2) hz2,
    View.ld_unit_zero (S := S2) hz1]
  funext j
  show k1_pay1 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) j = edgeOf V c R0 (((cfg1.win 9).blk t).view.emb j)
  rw [wblock2 V c t, wblock3 V c t, bblock4 V c t, wblock5 V c t, bblock6 V c t, wblock7 V c t, bblock8 V c t]
  exact Cert.EdgeStage.edge_block (V c main_v7) (V c main_v14) R0 (V c main_arg12) (V c main_arg13) (V c main_arg14)
    (V c main_arg15) (V c main_arg16) (iblk1 V c 0 t) (iblk1 V c 1 t) (V c main_v15) (V c main_v16)
    (shiftRow (N := 800000) (t.val * 8000) (rows_le t)) (shiftRow (N := 800000) (t.val * 8000) (rows_le t))
    (fun y => ((cfg1.win 9).blk t).view.emb y) (t.val * 8000)
    (shiftRow_emb _ _) (shiftRow_emb _ _) (outEmb t) (srcBlock V c t) (dstBlock V c t) hs hd j

/-- An index of the output array is in point t's block iff each coordinate is in the block's range on its axis. -/
theorem mem_blk (t : Fin cfg1.N) (i : S800000x2.Idx) :
    i ∈ ((cfg1.win 9).blk t).view.set ↔ ∀ a : Fin 2, win1_9.index t a * S8000x2.size a ≤ (i a).val ∧ (i a).val < win1_9.index t a * S8000x2.size a + S8000x2.size a := by
  show i ∈ ((View.whole main_v17).slice (win1_9.rect t)).set ↔ _
  rw [View.set_slice_whole, Rect.mem_set_unit]
  exact Iff.rfl

/-- Every entry of the output array is in the block of the point its row falls in. -/
theorem cover (i : S800000x2.Idx) : ∃ t : Fin cfg1.N, (cfg1.win 9).flush t = true ∧ i ∈ ((cfg1.win 9).blk t).view.set := by
  have hi0 : (i 0).val < 800000 := (i 0).isLt
  have hi1 : (i 1).val < 2 := (i 1).isLt
  have hN : grid1.N = 100 := N_1
  have ht : (i 0).val / 8000 < cfg1.N := by show _ < grid1.N; rw [hN]; omega
  obtain ⟨-, -, -, -, e0, e1, -⟩ := idx_facts ⟨(i 0).val / 8000, ht⟩
  refine ⟨⟨(i 0).val / 8000, ht⟩, flush1_9 _, ?_⟩
  rw [mem_blk]
  intro a
  match a with
  | ⟨0, _⟩ =>
    show win1_9.index ⟨(i 0).val / 8000, ht⟩ (0 : Fin 2) * 8000 ≤ (i 0).val ∧ (i 0).val < win1_9.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win1_9.index ⟨(i 0).val / 8000, ht⟩ (1 : Fin 2) * 2 ≤ (i 1).val ∧ (i 1).val < win1_9.index ⟨(i 0).val / 8000, ht⟩ (1 : Fin 2) * 2 + 2
    rw [e1]; omega

/-- THE OUTPUT ARRAY after the pipeline is the edge stage of the arrays the region finds. -/
theorem final (c : Dev nD) (R0 : FVec Ideal Cert.ReferenceIdeal.S256x128 .f32)
    (hs : ∀ j : S128x128.Idx, (V c main_v15 : Vec Ideal S128x128 .f32) j = R0 (topIdx j))
    (hd : ∀ j : S128x128.Idx, (V c main_v16 : Vec Ideal S128x128 .f32) j = R0 (botIdx j)) :
    (dat1 V c).arrAt 9 cfg1.N = edgeOf V c R0 :=
  (dat1 V c).arrAt_eq_of_cover 9 (edgeOf V c R0) (fun t _ => flushed_eq V c R0 hs hd t) cover

end Cert.KernelIdeal.EdgeArray

end
-- ==== Proof.KernelValue.lean ====
/-
  The idealized kernel's result array as a function of its arguments.

  After the node kernel's pipeline its output array holds the reference's node stage of the arguments and every other
  buffer is as launched.  The host operations between the two kernels then gather the rows of that array named by the
  two index vectors and cut the first readout matrix into its top and bottom halves; nothing else changes.  After the
  readout kernel's pipeline its output array — the program's result — holds the reference's edge stage of those
  gathered arrays: the reference's whole result term of the launch arguments.
-/
import proofs.«132359_j80633716015170_2_alg».proof.Proof.Gen.KernelIdeal.Frame
import proofs.«132359_j80633716015170_2_alg».proof.Proof.NodeArray
import proofs.«132359_j80633716015170_2_alg».proof.Proof.EdgeArray
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.RefStages Cert.EdgeStage

variable (m : (ℓ : Loc nD τ sig) → Buf (Elt Ideal) ℓ) (ρ : Dev nD → PrngReg)

/-! ## After the node kernel -/

/-- The node kernel's output array holds the node stage of the launch arguments. -/
theorem w1_v0 (c : Dev nD) : W1 m ρ c (Proc.devRef .tc main_v0)
    = nodeHost (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W1_arr m ρ c 9).trans (Cert.KernelIdeal.NodeArray.final (V0 m ρ) c)

/-- An array the node kernel has no window over is as launched. -/
theorem w1_arg1 (c : Dev nD) : W1 m ρ c (Proc.devRef .tc main_arg1) = m ((c : Thread nD τ).loc main_arg1) :=
  W1_of_ne m ρ c main_arg1 (by decide)
theorem w1_arg2 (c : Dev nD) : W1 m ρ c (Proc.devRef .tc main_arg2) = m ((c : Thread nD τ).loc main_arg2) :=
  W1_of_ne m ρ c main_arg2 (by decide)
theorem w1_arg11 (c : Dev nD) : W1 m ρ c (Proc.devRef .tc main_arg11) = m ((c : Thread nD τ).loc main_arg11) :=
  W1_of_ne m ρ c main_arg11 (by decide)
theorem w1_arg12 (c : Dev nD) : W1 m ρ c (Proc.devRef .tc main_arg12) = m ((c : Thread nD τ).loc main_arg12) :=
  W1_of_ne m ρ c main_arg12 (by decide)
theorem w1_arg13 (c : Dev nD) : W1 m ρ c (Proc.devRef .tc main_arg13) = m ((c : Thread nD τ).loc main_arg13) :=
  W1_of_ne m ρ c main_arg13 (by decide)
theorem w1_arg14 (c : Dev nD) : W1 m ρ c (Proc.devRef .tc main_arg14) = m ((c : Thread nD τ).loc main_arg14) :=
  W1_of_ne m ρ c main_arg14 (by decide)
theorem w1_arg15 (c : Dev nD) : W1 m ρ c (Proc.devRef .tc main_arg15) = m ((c : Thread nD τ).loc main_arg15) :=
  W1_of_ne m ρ c main_arg15 (by decide)
theorem w1_arg16 (c : Dev nD) : W1 m ρ c (Proc.devRef .tc main_arg16) = m ((c : Thread nD τ).loc main_arg16) :=
  W1_of_ne m ρ c main_arg16 (by decide)

/-! ## After the host operations between the kernels -/

/-- The first gathered array: the rows of the node kernel's output named by the first index vector. -/
theorem v2_v7 (c : Dev nD) : (V2 m ρ c main_v7 : S800000x128.Idx → Ideal .bf16)
    = rowsOf (W1 m ρ c (Proc.devRef .tc main_v0) : S50000x128.Idx → Ideal .bf16) (W1 m ρ c (Proc.devRef .tc main_arg1)) := by
  show StableHlo.after hostOps1 (W1 m ρ c) (Proc.devRef .tc main_v7) = _
  after_results
  rfl

/-- The second gathered array. -/
theorem v2_v14 (c : Dev nD) : (V2 m ρ c main_v14 : S800000x128.Idx → Ideal .bf16)
    = rowsOf (W1 m ρ c (Proc.devRef .tc main_v0) : S50000x128.Idx → Ideal .bf16) (W1 m ρ c (Proc.devRef .tc main_arg2)) := by
  show StableHlo.after hostOps1 (W1 m ρ c) (Proc.devRef .tc main_v14) = _
  after_results
  rfl

/-- The top half of the first readout matrix. -/
theorem v2_v15 (c : Dev nD) : (V2 m ρ c main_v15 : S128x128.Idx → Ideal .f32)
    = extractStridedSlice S128x128 ![0, 0] (W1 m ρ c (Proc.devRef .tc main_arg11) : S256x128.Idx → Ideal .f32) slices_S256x128_S128x128_0_0 := by
  show StableHlo.after hostOps1 (W1 m ρ c) (Proc.devRef .tc main_v15) = _
  after_results

/-- The bottom half of the first readout matrix. -/
theorem v2_v16 (c : Dev nD) : (V2 m ρ c main_v16 : S128x128.Idx → Ideal .f32)
    = extractStridedSlice S128x128 ![128, 0] (W1 m ρ c (Proc.devRef .tc main_arg11) : S256x128.Idx → Ideal .f32) slices_S256x128_S128x128_128_0 := by
  show StableHlo.after hostOps1 (W1 m ρ c) (Proc.devRef .tc main_v16) = _
  after_results

/-- The later arguments pass through the host operations unchanged. -/
theorem v2_arg12 (c : Dev nD) : V2 m ρ c main_arg12 = m ((c : Thread nD τ).loc main_arg12) := by
  refine Eq.trans ?_ (w1_arg12 m ρ c)
  show StableHlo.after hostOps1 (W1 m ρ c) (Proc.devRef .tc main_arg12) = _
  after_results <;> rfl
theorem v2_arg13 (c : Dev nD) : V2 m ρ c main_arg13 = m ((c : Thread nD τ).loc main_arg13) := by
  refine Eq.trans ?_ (w1_arg13 m ρ c)
  show StableHlo.after hostOps1 (W1 m ρ c) (Proc.devRef .tc main_arg13) = _
  after_results <;> rfl
theorem v2_arg14 (c : Dev nD) : V2 m ρ c main_arg14 = m ((c : Thread nD τ).loc main_arg14) := by
  refine Eq.trans ?_ (w1_arg14 m ρ c)
  show StableHlo.after hostOps1 (W1 m ρ c) (Proc.devRef .tc main_arg14) = _
  after_results <;> rfl
theorem v2_arg15 (c : Dev nD) : V2 m ρ c main_arg15 = m ((c : Thread nD τ).loc main_arg15) := by
  refine Eq.trans ?_ (w1_arg15 m ρ c)
  show StableHlo.after hostOps1 (W1 m ρ c) (Proc.devRef .tc main_arg15) = _
  after_results <;> rfl
theorem v2_arg16 (c : Dev nD) : V2 m ρ c main_arg16 = m ((c : Thread nD τ).loc main_arg16) := by
  refine Eq.trans ?_ (w1_arg16 m ρ c)
  show StableHlo.after hostOps1 (W1 m ρ c) (Proc.devRef .tc main_arg16) = _
  after_results <;> rfl

/-- Entry (k, c) of the top half is entry (k, c) of the first readout matrix. -/
theorem top_apply (c : Dev nD) (j : S128x128.Idx) :
    (V2 m ρ c main_v15 : Vec Ideal S128x128 .f32) j = m ((c : Thread nD τ).loc main_arg11) (topIdx j) :=
  (congrFun (v2_v15 m ρ c) j).trans
    ((extractStridedSlice_apply ![0, 0] _ slices_S256x128_S128x128_0_0 j (topIdx j) (fun a => by
      match a with
      | ⟨0, _⟩ => show (j 0).val = 0 + (j 0).val; omega
      | ⟨1, _⟩ => show (j 1).val = 0 + (j 1).val; omega)).trans (congrFun (w1_arg11 m ρ c) (topIdx j)))

/-- Entry (k, c) of the bottom half is entry (128 + k, c) of the first readout matrix. -/
theorem bot_apply (c : Dev nD) (j : S128x128.Idx) :
    (V2 m ρ c main_v16 : Vec Ideal S128x128 .f32) j = m ((c : Thread nD τ).loc main_arg11) (botIdx j) :=
  (congrFun (v2_v16 m ρ c) j).trans
    ((extractStridedSlice_apply ![128, 0] _ slices_S256x128_S128x128_128_0 j (botIdx j) (fun a => by
      match a with
      | ⟨0, _⟩ => show 128 + (j 0).val = 128 + (j 0).val; rfl
      | ⟨1, _⟩ => show (j 1).val = 0 + (j 1).val; omega)).trans (congrFun (w1_arg11 m ρ c) (botIdx j)))

/-! ## The result -/

/-- THE RESULT ARRAY at the end of the run is the reference's whole result term of the launch arguments. -/
theorem result (c : Dev nD) : W3 m ρ c (Proc.devRef .tc main_v17)
    = wholeHost (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W3_arr m ρ c 9).trans ?_
  refine (Cert.KernelIdeal.EdgeArray.final (V2 m ρ) c (m ((c : Thread nD τ).loc main_arg11)) (top_apply m ρ c) (bot_apply m ρ c)).trans ?_
  show edgeHost (V2 m ρ c main_v7) (V2 m ρ c main_v14) (m ((c : Thread nD τ).loc main_arg11)) (V2 m ρ c main_arg12) (V2 m ρ c main_arg13)
      (V2 m ρ c main_arg14) (V2 m ρ c main_arg15) (V2 m ρ c main_arg16) = _
  rw [v2_v7 m ρ c, v2_v14 m ρ c, v2_arg12 m ρ c, v2_arg13 m ρ c, v2_arg14 m ρ c, v2_arg15 m ρ c, v2_arg16 m ρ c,
    w1_v0 m ρ c, w1_arg1 m ρ c, w1_arg2 m ρ c]
  rfl

end Cert.KernelIdeal.Whole

end
-- ==== Proof.lean ====
/-
  A gated node network followed by a per-edge readout, as two pipelined kernels with a host gather between them,
  against the plain array program: equal results on the extended reals.

  Both programs compute, for a feature array h of 50000 rows and two index vectors of 800000 entries,
      x₃ = max(max(max(h·W0 + b0, 0)·W1 + b1, 0)·W2 + b2, 0),      x = sigmoid(x₃·Wg + bg) · x₃,
      y  = max(max([x[src] | x[dst]]·R0 + r0, 0)·R1 + r1, 0)·R2 + r2.
  The kernel program computes x five blocks of 10000 rows at a time, gathers the rows x[src] and x[dst] on the host,
  cuts R0 into its top and bottom halves, and computes y a hundred blocks of 8000 rows at a time with
  x[src]·R0[0:128] + x[dst]·R0[128:256] in place of the product with the joined array; it narrows every matrix
  product's operands to a shorter float format, which is the identity on the extended reals, and it uses the logistic
  function where the array program writes 1 / (1 + exp(−v)), which is that function's definition.  Every row of a
  block depends only on the same row of the input block, a sum over 256 positions is the sum over the first 128 plus
  the sum over the last 128 (addition of extended reals is commutative and associative: no finiteness is used), and
  the blocks cover the arrays.  So the kernel program's result array is the array program's result term of the same
  arguments, entry by entry, on every extended real; the precondition is not used.

  The three frames: each kernel program's is its pipelines' run with the argument arrays read back; the array
  program's is its run with the result dropped.  The idealization changes nothing the ledger records.
-/
import proofs.«132359_j80633716015170_2_alg».proof.Defs
import proofs.«132359_j80633716015170_2_alg».proof.Proof.Gen.Kernel
import proofs.«132359_j80633716015170_2_alg».proof.Proof.Gen.Kernel.Skeleton
import proofs.«132359_j80633716015170_2_alg».proof.Proof.Gen.Kernel.Launch
import proofs.«132359_j80633716015170_2_alg».proof.Proof.Gen.Kernel.Points
import proofs.«132359_j80633716015170_2_alg».proof.Proof.Gen.Kernel.Frame
import proofs.«132359_j80633716015170_2_alg».proof.Proof.Gen.KernelIdeal
import proofs.«132359_j80633716015170_2_alg».proof.Proof.Gen.KernelIdeal.Skeleton
import proofs.«132359_j80633716015170_2_alg».proof.Proof.Gen.KernelIdeal.Launch
import proofs.«132359_j80633716015170_2_alg».proof.Proof.Gen.KernelIdeal.Points
import proofs.«132359_j80633716015170_2_alg».proof.Proof.Gen.KernelIdeal.Frame
import proofs.«132359_j80633716015170_2_alg».proof.Proof.Gen.ReferenceIdeal
import proofs.«132359_j80633716015170_2_alg».proof.Proof.Gen.ReferenceIdeal.Run
import proofs.«132359_j80633716015170_2_alg».proof.Proof.Gen.Pre_finite_inputs
import proofs.«132359_j80633716015170_2_alg».proof.Proof.RefStages
import proofs.«132359_j80633716015170_2_alg».proof.Proof.KernelRun
import proofs.«132359_j80633716015170_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the array program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization applied no rewrite: there is nothing to preserve. -/
theorem preserves : Cert.preserves_Kernel_KernelIdeal := trivial

/-- From memories agreeing on the arguments both idealized programs end with the array program's result term of
    those arguments in their result arrays, the arguments unchanged. -/
theorem algebraic : Cert.algebraic_KernelIdeal_ReferenceIdeal := by
  intro m ρ m' ρ' _ hagree
  refine ⟨fun c => Cert.RefStages.wholeHost (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Whole.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [Cert.RefStages.res_eq m' c, h0, h1, h2, h3, h4, h5, h6, h7, h8, h9, h10, h11, h12, h13, h14, h15, h16]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
